-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S4096x128 : Shape := ⟨2, ![4096, 128]⟩
abbrev S16384x4096 : Shape := ⟨2, ![16384, 4096]⟩
abbrev S4096x16384 : Shape := ⟨2, ![4096, 16384]⟩
abbrev S128x128 : Shape := ⟨2, ![128, 128]⟩
abbrev S256x128 : Shape := ⟨2, ![256, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S128x128 .f32) (main_arg5 : FVec F S128x128 .f32) (main_arg6 : FVec F S256x128 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S16384x128 .f32) (main_arg1 : FVec F S4096x128 .f32) (main_arg2 : FVec F S16384x4096 .f32) (main_arg3 : FVec F S4096x16384 .f32) (main_arg4 : FVec F S128x128 .f32) (main_arg5 : FVec F S128x128 .f32) (main_arg6 : FVec F S256x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_arg5 main_arg6 main_v13 main_v16
-- ==== Kernel.lean ====
abbrev S16384x128 : Shape := ⟨2, ![16384, 128]⟩
abbrev S4096x128 : Shape := ⟨2, ![4096, 128]⟩
abbrev S16384x4096 : Shape := ⟨2, ![16384, 4096]⟩
abbrev S4096x16384 : Shape := ⟨2, ![4096, 16384]⟩
abbrev S128x128 : Shape := ⟨2, ![128, 128]⟩
abbrev S256x128 : Shape := ⟨2, ![256, 128]⟩
abbrev S256x16384 : Shape := ⟨2, ![256, 16384]⟩
abbrev S512x4096 : Shape := ⟨2, ![512, 4096]⟩
abbrev S512x128 : Shape := ⟨2, ![512, 128]⟩

abbrev nBuf : Space → Nat
  | .hbm => 9
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S16384x4096, .f32⟩
  | .hbm, ⟨3, _⟩ => ⟨S4096x16384, .f32⟩
  | .hbm, ⟨4, _⟩ => ⟨S128x128, .f32⟩
  | .hbm, ⟨5, _⟩ => ⟨S128x128, .f32⟩
  | .hbm, ⟨6, _⟩ => ⟨S256x128, .f32⟩
  | .hbm, ⟨7, _⟩ => ⟨S16384x128, .f32⟩
  | .hbm, ⟨8, _⟩ => ⟨S4096x128, .f32⟩
  | .local _ .vmem, ⟨0, _⟩ => ⟨S256x16384, .f32⟩
  | .local _ .vmem, ⟨1, _⟩ => ⟨S256x16384, .f32⟩
  | .local _ .vmem, ⟨2, _⟩ => ⟨S16384x128, .f32⟩
  | .local _ .vmem, ⟨3, _⟩ => ⟨S256x128, .f32⟩
  | .local _ .vmem, ⟨4, _⟩ => ⟨S256x128, .f32⟩
  | .local _ .vmem, ⟨5, _⟩ => ⟨S128x128, .f32⟩
  | .local _ .vmem, ⟨6, _⟩ => ⟨S128x128, .f32⟩
  | .local _ .vmem, ⟨7, _⟩ => ⟨S256x128, .f32⟩
  | .local _ .vmem, ⟨8, _⟩ => ⟨S512x4096, .f32⟩
  | .local _ .vmem, ⟨9, _⟩ => ⟨S512x4096, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v19 : BitVec 32 := Scalar.muli arg0 c256_i32
  let v20 : Index := Scalar.indexCast v19
  let c0_18 : Index := 0#32
  ![v20.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  inb_S256x16384_S256x16384_0_0 : ∀ a, (![0, 0] : Fin 2 → Nat) a + S256x16384.size a ≤ S256x16384.size a
  h_S256x16384 : 0 < S256x16384.numel
  inb_S16384x128_S16384x128_0_0 : ∀ a, (![0, 0] : Fin 2 → Nat) a + S16384x128.size a ≤ S16384x128.size a
  h_S16384x128 : 0 < S16384x128.numel
  inb_S128x128_S128x128_0_0 : ∀ a, (![0, 0] : Fin 2 → Nat) a + S128x128.size a ≤ S128x128.size a
  h_S128x128 : 0 < S128x128.numel
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  inb_S256x128_S256x128_0_0 : ∀ a, (![0, 0] : Fin 2 → Nat) a + S256x128.size a ≤ S256x128.size a
  h_S256x128 : 0 < S256x128.numel
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  dot_S256x16384_S16384x128_S256x128_1_0_0_1_n_n_wf : DotDims.WF S256x16384 S16384x128 S256x128 [1] [0] [0] [1] [] []
  dot_S128x128_S128x128_S128x128_1_0_0_1_n_n_wf : DotDims.WF S128x128 S128x128 S128x128 [1] [0] [0] [1] [] []
  dot_S256x128_S128x128_S256x128_1_0_0_1_n_n_wf : DotDims.WF S256x128 S128x128 S256x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h1 : k0_cond1 i = 1#1), ∀ a, (k0_off1 i) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S4096x16384.size a
  hwx0_0 : ∀ i : grid0.Coords, EltTy.bits .f32 = 32 ∨ (Rect.block (s := S4096x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S16384x4096.size a
  hwx0_6 : ∀ i : grid0.Coords, EltTy.bits .f32 = 32 ∨ (Rect.block (s := S16384x4096) S512x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S16384x128.size a
  hwx0_7 : ∀ i : grid0.Coords, EltTy.bits .f32 = 32 ∨ (Rect.block (s := S16384x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S4096x128.size a
  hwx0_8 : ∀ i : grid0.Coords, EltTy.bits .f32 = 32 ∨ (Rect.block (s := S4096x128) S4096x128.size (cc0_transform_8 i) (hinb0_8 i)).WholeWords (EltTy.packing .f32)

variable [Facts₀]

def dot_S256x16384_S16384x128_S256x128_1_0_0_1_n_n : DotDims S256x16384 S16384x128 S256x128 where
  lhsContracting := [1]
  rhsContracting := [0]
  lhsNonContracting := [0]
  rhsNonContracting := [1]
  lhsBatch := []
  rhsBatch := []
  wf := dot_S256x16384_S16384x128_S256x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg3) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4096x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond1 i == 1#1) | ⟨_ + 9, h⟩ => absurd h (Nat.not_lt.2 (Nat.le_add_left _ _))

class Facts : Prop extends Facts₀ where

variable [Facts]
-- ==== ReferenceIdeal.lean ====
abbrev S16384x128 : Shape := ⟨2, ![16384, 128]⟩
abbrev S4096x128 : Shape := ⟨2, ![4096, 128]⟩
abbrev S16384x4096 : Shape := ⟨2, ![16384, 4096]⟩
abbrev S4096x16384 : Shape := ⟨2, ![4096, 16384]⟩
abbrev S128x128 : Shape := ⟨2, ![128, 128]⟩
abbrev S256x128 : Shape := ⟨2, ![256, 128]⟩
abbrev S4096x256 : Shape := ⟨2, ![4096, 256]⟩

abbrev nBuf : Space → Nat
  | .hbm => 13
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S16384x4096, .f32⟩
  | .hbm, ⟨3, _⟩ => ⟨S4096x16384, .f32⟩
  | .hbm, ⟨4, _⟩ => ⟨S128x128, .f32⟩
  | .hbm, ⟨5, _⟩ => ⟨S128x128, .f32⟩
  | .hbm, ⟨6, _⟩ => ⟨S256x128, .f32⟩
  | .hbm, ⟨7, _⟩ => ⟨S16384x128, .f32⟩
  | .hbm, ⟨8, _⟩ => ⟨S4096x128, .f32⟩
  | .hbm, ⟨9, _⟩ => ⟨S4096x128, .f32⟩
  | .hbm, ⟨10, _⟩ => ⟨S4096x256, .f32⟩
  | .hbm, ⟨11, _⟩ => ⟨S4096x128, .f32⟩
  | .hbm, ⟨12, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  concatenates_S4096x128_S4096x128_S4096x256_d1 : Shape.Concatenates [S4096x128, S4096x128] S4096x256 1
  dot_S16384x128_S128x128_S16384x128_1_0_0_1_n_n_wf : DotDims.WF S16384x128 S128x128 S16384x128 [1] [0] [0] [1] [] []
  dot_S4096x16384_S16384x128_S4096x128_1_0_0_1_n_n_wf : DotDims.WF S4096x16384 S16384x128 S4096x128 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  dot_S16384x4096_S4096x128_S16384x128_1_0_0_1_n_n_wf : DotDims.WF S16384x4096 S4096x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.KBody.lean ====
/-
  The kernel body on whole staging buffers, one run per phase.

  The grid has 48 points. At a point of the first phase (points 0..15) the body reads the point's 256 rows of the
  hyperedge-by-node incidence matrix, all node embeddings, the point's 256 rows of the hyperedge embeddings and
  the three weight matrices, and writes 256 rows of the fused hyperedge messages into the resident buffer of
  4096 rows, at rows 256 t .. 256 t + 255; every other row of that buffer, and the other output's buffer, stay as
  found. At a point of the second phase (points 16..47) it reads 512 rows of the node-by-hyperedge incidence
  matrix and the whole resident buffer, and overwrites the other output's buffer with their product; the
  resident buffer stays as found. Both runs are stated over arbitrary contents of the two output buffers.
-/
import proofs.«178155_g20358144983738_cont_8to1_1615_5_alg».proof.Proof.Gen.Kernel.Frame
import proofs.«178155_g20358144983738_cont_8to1_1615_5_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The two phases, from the grid coordinate -/

/-- The first conditional's test: the point is in the first phase. -/
abbrev inA (i : grid0.Coords) : Prop := k0_cond1 i = 1#1
/-- The second conditional's test: the point is in the second phase. -/
abbrev inB (i : grid0.Coords) : Prop := k0_cond2 i = 1#1

/-- The first phase is the points before point 16. -/
theorem inA_iff : ∀ t : Fin cfg0.N, inA (grid0.coords t) ↔ t.val < 16 :=
  (by decide +kernel : ∀ t : Fin grid0.N, inA (grid0.coords t) ↔ t.val < 16)
/-- The second phase is the points from point 16 on. -/
theorem inB_iff : ∀ t : Fin cfg0.N, inB (grid0.coords t) ↔ 16 ≤ t.val :=
  (by decide +kernel : ∀ t : Fin grid0.N, inB (grid0.coords t) ↔ 16 ≤ t.val)
/-- A first-phase point t stores at row 256 t, column 0. -/
theorem off_eq : ∀ t : Fin cfg0.N, t.val < 16 → k0_off1 (grid0.coords t) = ![256 * t.val, 0] :=
  (by decide +kernel : ∀ t : Fin grid0.N, t.val < 16 → k0_off1 (grid0.coords t) = ![256 * t.val, 0])

/-- Zero offsets of a rank-two rectangle, as the zero function. -/
theorem hz2 : (![0, 0] : Fin 2 → ℕ) = fun _ => 0 := by
  funext a; match a with | ⟨0, _⟩ => rfl | ⟨1, _⟩ => rfl

/-! ## What each phase computes -/

/-- The 256 rows of fused hyperedge messages a first-phase point computes from its blocks: x0 the 256 rows of the
    incidence matrix, x1 the node embeddings, x2 the 256 rows of hyperedge embeddings, x3 / x4 the node and hyperedge
    weights, x5 the fusion weights, whose top and bottom halves are read apart. -/
def fusedRows (x0 : Vec F S256x16384 .f32) (x1 : Vec F S16384x128 .f32) (x2 : Vec F S256x128 .f32)
    (x3 x4 : Vec F S128x128 .f32) (x5 : Vec F S256x128 .f32) : FVec F S256x128 .f32 :=
  k0_pay1 x0 x1 x3 (View.ld x5 (Rect.unit (s := S256x128) ![0, 0] S128x128.size inb_S256x128_S128x128_0_0)) x4
    (View.ld x5 (Rect.unit (s := S256x128) ![128, 0] S128x128.size inb_S256x128_S128x128_128_0)) x2

/-- Rows o .. o + 255 of X are the rows of w, every other row of X is that row of Y. -/
def RowsStored (o : ℕ) (w : FVec F S256x128 .f32) (Y X : Vec F S4096x128 .f32) : Prop :=
  (∀ (y : S4096x128.Idx) (x : S256x128.Idx), (y (0 : Fin 2)).val = o + (x (0 : Fin 2)).val →
      (y (1 : Fin 2)).val = (x (1 : Fin 2)).val → X y = w x)
  ∧ ∀ y : S4096x128.Idx, ((y (0 : Fin 2)).val < o ∨ o + 256 ≤ (y (0 : Fin 2)).val) → X y = Y y

set_option maxHeartbeats 1600000 in
/-- A first-phase point: the inputs' buffers and the second-phase output's buffer come back as found; the resident
    buffer comes back with the point's 256 rows stored at row o, the rest as found. -/
theorem runA (c : Dev nD) (i : grid0.Coords) (arg1 : Memref sig .tc .vmem S256x16384 .f32) (harg1 : arg1.IsWhole) (arg2 : Memref sig .tc .vmem S16384x128 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S256x128 .f32) (harg6 : arg6.IsWhole) (arg7 : Memref sig .tc .vmem S512x4096 .f32) (harg7 : arg7.IsWhole) (arg8 : Memref sig .tc .vmem S512x128 .f32) (harg8 : arg8.IsWhole) (arg9 : Memref sig .tc .vmem S4096x128 .f32) (harg9 : arg9.IsWhole) (hc0 : inA i) (hc1 : ¬inB i)
    (o : ℕ) (ho : k0_off1 i = ![o, 0])
    (x0 : Vec F S256x16384 .f32) (x1 : Vec F S16384x128 .f32) (x2 : Vec F S256x128 .f32) (x3 : Vec F S128x128 .f32) (x4 : Vec F S128x128 .f32) (x5 : Vec F S256x128 .f32) (x6 : Vec F S512x4096 .f32) (y7 : Vec F S512x128 .f32) (y8 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7
                ∗ (∃ X, ⌜RowsStored o (fusedRows x0 x1 x2 x3 x4 x5) y8 X⌝ ∗ owns (c : Thread nD τ) arg9 fullShare X)) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9) K := by
    intro E K
    simp only [cc0__merged_kernel_eq_skeleton]; unfold cc0__merged_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _
    isplitr; swap
    · iexists _; isplitr; swap; · iexact H8
      ipureintro; rfl
    ipureintro
    refine ⟨fun y x h0 h1 => ?_, fun y h => ?_⟩
    · refine (View.read_writes_cons_rows_of_mem arg9.view _ _ _ [] y x ho h0 h1).trans ?_
      unfold fusedRows
      simp only [View.readAt_eq_ld, harg1.read_unread, harg2.read_unread, harg3.read_unread, harg4.read_unread,
        harg5.read_unread, harg6.read_unread, View.ld_unit_zero (S := S256x16384) hz2,
        View.ld_unit_zero (S := S16384x128) hz2, View.ld_unit_zero (S := S128x128) hz2,
        View.ld_unit_zero (S := S256x128) hz2]
    · refine (View.read_writes_cons_rows_of_not_mem arg9.view _ _ _ [] y ho rfl h).trans ?_
      show arg9.view.read (Elt F) (harg9.unread y8) y = y8 y
      rw [harg9.read_unread]

set_option maxHeartbeats 1600000 in
/-- A second-phase point: the inputs' buffers and the resident buffer come back as found; the other output's buffer
    comes back holding the product of the point's 512 incidence rows with the resident buffer's contents. -/
theorem runB (c : Dev nD) (i : grid0.Coords) (arg1 : Memref sig .tc .vmem S256x16384 .f32) (harg1 : arg1.IsWhole) (arg2 : Memref sig .tc .vmem S16384x128 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S256x128 .f32) (harg6 : arg6.IsWhole) (arg7 : Memref sig .tc .vmem S512x4096 .f32) (harg7 : arg7.IsWhole) (arg8 : Memref sig .tc .vmem S512x128 .f32) (harg8 : arg8.IsWhole) (arg9 : Memref sig .tc .vmem S4096x128 .f32) (harg9 : arg9.IsWhole) (hc0 : ¬inA i) (hc1 : inB i)
    (x0 : Vec F S256x16384 .f32) (x1 : Vec F S16384x128 .f32) (x2 : Vec F S256x128 .f32) (x3 : Vec F S128x128 .f32) (x4 : Vec F S128x128 .f32) (x5 : Vec F S256x128 .f32) (x6 : Vec F S512x4096 .f32) (y7 : Vec F S512x128 .f32) (y8 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare (k0_pay2 x6 y8) ∗ owns (c : Thread nD τ) arg9 fullShare y8) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9) K := by
    intro E K
    simp only [cc0__merged_kernel_eq_skeleton]; unfold cc0__merged_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      rw [View.read_writes_eq_canon _ _ _ (fun y => ⟨_, List.mem_singleton_self _, View.mem_set_unit_zero hz2 inb_S512x128_S512x128_0_0 y⟩),
        View.canon_unit_zero hz2]
      simp only [View.readAt_eq_ld, harg7.read_unread, harg9.read_unread, View.ld_unit_zero (S := S512x4096) hz2,
        View.ld_unit_zero (S := S4096x128) hz2]
    iexists _; isplitr; · ipureintro; exact harg9.read_unread _
    iexact H8

end Cert.Kernel.Body

end
-- ==== Proof.KData.lean ====
/-
  The pipeline's proof data, the body obligation, the run and the frame.

  The inputs' staging buffers hold their blocks at every point. The resident output buffer (4096 rows) is filled 256
  rows at a time by the 16 points of the first phase and is only read by the 32 points of the second, so what it
  holds when the body runs at point t is: rows below 256 min(t, 16) are the fused rows (each row r computed at point
  r / 256), the others whatever the buffer held when the region was entered. Its one write-back is at the last point.
  The other output's buffer is left alone by the first phase and overwritten by each point of the second with that
  point's 512 incidence rows times the resident buffer, which by then is complete; it is written back at every point
  of the second phase.
-/
import proofs.«178155_g20358144983738_cont_8to1_1615_5_alg».proof.Proof.KBody
import Idealize.ShloMosaic.Lib.ValueIdx
import Idealize.ShloMosaic.Lib.Pipeline.Kit

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The resident output is never fetched. -/
theorem nofetch8 : ∀ t : Fin cfg0.N, (cfg0.win 8).fetch t = false :=
  (by decide +kernel : ∀ t : Fin grid0.N, win0_8.fetch t = false)

/-- Each window's current staging buffer at point t. -/
abbrev ms0 (t : Fin cfg0.N) : Memref sig .tc .vmem S256x16384 .f32 := win0_0.stage (cfg0.slots t 0)
abbrev ms1 (t : Fin cfg0.N) : Memref sig .tc .vmem S16384x128 .f32 := win0_1.stage (cfg0.slots t 1)
abbrev ms2 (t : Fin cfg0.N) : Memref sig .tc .vmem S256x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S256x128 .f32 := win0_5.stage (cfg0.slots t 5)
abbrev ms6 (t : Fin cfg0.N) : Memref sig .tc .vmem S512x4096 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S4096x128 .f32 := win0_8.stage (cfg0.slots t 8)

/-! ## The fused rows as one array -/

/-- The first-phase point that computes row r of the fused messages: r / 256. -/
def ptOf (y : S4096x128.Idx) : Fin cfg0.N := ⟨(y (0 : Fin 2)).val / 256, by
  have h : (y (0 : Fin 2)).val < 4096 := (y (0 : Fin 2)).isLt
  rw [show cfg0.N = 48 from N_0]; omega⟩

/-- Where row r sits among that point's 256 rows: r % 256, same column. -/
def rowIn (y : S4096x128.Idx) : S256x128.Idx :=
  ValueIdx.ix2 (⟨(y (0 : Fin 2)).val % 256, Nat.mod_lt _ (by decide)⟩ : Fin 256) (⟨(y (1 : Fin 2)).val, (y (1 : Fin 2)).isLt⟩ : Fin 128)

/-- The rows a first-phase point t computes, from its blocks. -/
def rowsAt (c : Dev nD) (t : Fin cfg0.N) : FVec F S256x128 .f32 :=
  fusedRows (iblk m c 0 t) (iblk m c 1 t) (iblk m c 2 t) (iblk m c 3 t) (iblk m c 4 t) (iblk m c 5 t)

/-- The fused hyperedge messages, all 4096 rows. -/
def fused (c : Dev nD) : Vec F S4096x128 .f32 := fun y => rowsAt m c (ptOf y) (rowIn y)

/-- The 512 rows a second-phase point t computes. -/
def propAt (c : Dev nD) (t : Fin cfg0.N) : FVec F S512x128 .f32 := k0_pay2 (iblk m c 6 t) (fused m c)

/-- Rows below n hold the fused rows. -/
def Done (c : Dev nD) (n : ℕ) (Y : Vec F S4096x128 .f32) : Prop :=
  ∀ y : S4096x128.Idx, (y (0 : Fin 2)).val < n → Y y = fused m c y

/-! ## The proof data -/

/-- Exact data for the inputs (each buffer holds its block after the body, as before it); the outputs unnamed here. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- What a point may leave in the second-phase output's buffer: from point 16 on, its 512 rows. -/
def rel7 (c : Dev nD) (t : Fin cfg0.N) (Y X : Vec F S512x128 .f32) : Prop := 16 ≤ t.val → X = propAt m c t

/-- What a point may leave in the resident buffer: a first-phase point stores its 256 rows at row 256 t and keeps the
    rest; a second-phase point leaves it as found. -/
def rel8 (c : Dev nD) (t : Fin cfg0.N) (Y X : Vec F S4096x128 .f32) : Prop :=
  (t.val < 16 → RowsStored (256 * t.val) (rowsAt m c t) Y X) ∧ (16 ≤ t.val → X = Y)

/-- The two output windows' relations. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => none
    | ⟨6, _⟩ => none
    | ⟨7, _⟩ => some (rel7 m c)
    | ⟨8, _⟩ => some (rel8 m c)

/-- The relational data: the inputs' exact data, the outputs constrained by rel7 / rel8. -/
def rd (c : Dev nD) : RDat τ (Elt F) Unit ℕ (UR sig nD τ) ℕ cfg0 c := (dats m c).toR.override (ovr m c)

theorem after7 (c : Dev nD) : (rd m c).after 7 = rel7 m c := (dats m c).toR.override_after_of_eq_some rfl
theorem after8 (c : Dev nD) : (rd m c).after 8 = rel8 m c := (dats m c).toR.override_after_of_eq_some rfl

/-- What an input's buffer holds when the body runs: the window's block. -/
theorem finds_in (c : Dev nD) (w : Fin cfg0.W) (hw : ovr m c w = none) (t : Fin cfg0.N)
    (Y : (cfg0.win w).block.Idx → Elt F (cfg0.win w).elt) (h : (rd m c).Finds w t Y) :
    ∃ d, Y = (dats m c).before w t d :=
  (dats m c).toR_finds w t Y (((dats m c).toR.override_finds hw t Y).mp h)

theorem finds0 (c : Dev nD) (t : Fin cfg0.N) (Y) (h : (rd m c).Finds 0 t Y) : Y = iblk m c 0 t := by
  obtain ⟨d, rfl⟩ := finds_in m c 0 rfl t Y h
  exact before0_0_of m (dats m c) rfl (fun _ => rfl) t d
theorem finds1 (c : Dev nD) (t : Fin cfg0.N) (Y) (h : (rd m c).Finds 1 t Y) : Y = iblk m c 1 t := by
  obtain ⟨d, rfl⟩ := finds_in m c 1 rfl t Y h
  exact before0_1_of m (dats m c) rfl (fun _ => rfl) t d
theorem finds2 (c : Dev nD) (t : Fin cfg0.N) (Y) (h : (rd m c).Finds 2 t Y) : Y = iblk m c 2 t := by
  obtain ⟨d, rfl⟩ := finds_in m c 2 rfl t Y h
  exact before0_2_of m (dats m c) rfl (fun _ => rfl) t d
theorem finds3 (c : Dev nD) (t : Fin cfg0.N) (Y) (h : (rd m c).Finds 3 t Y) : Y = iblk m c 3 t := by
  obtain ⟨d, rfl⟩ := finds_in m c 3 rfl t Y h
  exact before0_3_of m (dats m c) rfl (fun _ => rfl) t d
theorem finds4 (c : Dev nD) (t : Fin cfg0.N) (Y) (h : (rd m c).Finds 4 t Y) : Y = iblk m c 4 t := by
  obtain ⟨d, rfl⟩ := finds_in m c 4 rfl t Y h
  exact before0_4_of m (dats m c) rfl (fun _ => rfl) t d
theorem finds5 (c : Dev nD) (t : Fin cfg0.N) (Y) (h : (rd m c).Finds 5 t Y) : Y = iblk m c 5 t := by
  obtain ⟨d, rfl⟩ := finds_in m c 5 rfl t Y h
  exact before0_5_of m (dats m c) rfl (fun _ => rfl) t d
theorem finds6 (c : Dev nD) (t : Fin cfg0.N) (Y) (h : (rd m c).Finds 6 t Y) : Y = iblk m c 6 t := by
  obtain ⟨d, rfl⟩ := finds_in m c 6 rfl t Y h
  exact before0_6_of m (dats m c) rfl (fun _ => rfl) t d

/-! ## What the resident buffer holds, point by point -/

/-- One first-phase point extends the completed rows by 256. -/
theorem done_step (c : Dev nD) (s : Fin cfg0.N) (hs : s.val < 16) (Y X : Vec F S4096x128 .f32)
    (hY : Done m c (256 * s.val) Y) (hX : RowsStored (256 * s.val) (rowsAt m c s) Y X) : Done m c (256 * (s.val + 1)) X := by
  intro y hy
  by_cases hlt : (y (0 : Fin 2)).val < 256 * s.val
  · rw [hX.2 y (Or.inl hlt)]; exact hY y hlt
  · have hpt : ptOf y = s := Fin.ext (by show (y (0 : Fin 2)).val / 256 = s.val; omega)
    rw [hX.1 y (rowIn y) (by show (y (0 : Fin 2)).val = 256 * s.val + (y (0 : Fin 2)).val % 256; omega) rfl]
    show rowsAt m c s (rowIn y) = rowsAt m c (ptOf y) (rowIn y)
    rw [hpt]

/-- When the body runs at point n, the rows below 256 min(n, 16) of the resident buffer are complete. -/
theorem finds8 (c : Dev nD) : ∀ (n : ℕ) (hn : n < cfg0.N) (Y : Vec F S4096x128 .f32),
    (rd m c).Finds 8 ⟨n, hn⟩ Y → Done m c (256 * min n 16) Y
  | 0, _, _, _ => fun y hy => absurd hy (by simp)
  | n + 1, hn, Y, h => by
    have hn' : n < cfg0.N := by omega
    rw [(rd m c).finds_of_pos (nofetch8 _) (by simp)] at h
    have hfl : (cfg0.win 8).flush ⟨n, hn'⟩ = false := by
      have hN : n + 1 < 48 := lt_of_lt_of_eq hn (show cfg0.N = 48 from N_0)
      cases hq : (cfg0.win 8).flush ⟨n, hn'⟩
      · rfl
      · have := (flush0_8 ⟨n, hn'⟩).mp hq; simp only at this; omega
    rcases h with h | ⟨Y', hY', hrel⟩
    · exact absurd (show (cfg0.win 8).flush ⟨n, hn'⟩ = true from h) (by rw [hfl]; exact Bool.false_ne_true)
    · have ih := finds8 c n hn' Y' hY'
      rw [after8] at hrel
      by_cases hs : n < 16
      · have := done_step m c ⟨n, hn'⟩ hs Y' Y (by rwa [Nat.min_eq_left (Nat.le_of_lt hs)] at ih) (hrel.1 hs)
        rwa [Nat.min_eq_left (by omega : n + 1 ≤ 16)]
      · rw [hrel.2 (by simpa using hs)]
        rw [Nat.min_eq_right (by omega : 16 ≤ n)] at ih
        rwa [Nat.min_eq_right (by omega : 16 ≤ n + 1)]

/-- In the second phase the resident buffer holds the fused messages. -/
theorem finds8_B (c : Dev nD) (t : Fin cfg0.N) (ht : 16 ≤ t.val) (Y : Vec F S4096x128 .f32)
    (h : (rd m c).Finds 8 t Y) : Y = fused m c := by
  funext y
  have hd := finds8 m c t.val t.isLt Y h
  rw [Nat.min_eq_right ht] at hd
  exact hd y (by have : (y (0 : Fin 2)).val < 4096 := (y (0 : Fin 2)).isLt; omega)

/-! ## The body obligation -/

/-- An input's buffer, handed back holding its block, is handed back as the relational data asks. -/
theorem in_post (c : Dev nD) (w : Fin cfg0.W) (hw : ovr m c w = none) (t : Fin cfg0.N)
    (hlive : cfg0.idle w (cfg0.grid.coords t) = false) (Y : (cfg0.win w).block.Idx → Elt F (cfg0.win w).elt) :
    owns (c : Thread nD τ) ((cfg0.win w).stage (cfg0.slots t w)) fullShare ((dats m c).after w t)
      ⊢ (iprop(∃ X, ⌜(rd m c).after w t Y X⌝ ∗ owns (c : Thread nD τ) ((cfg0.win w).stage (cfg0.slots t w)) fullShare X) : sProp 𝕄) := by
  have e : (rd m c).after w = (dats m c).toR.after w := (dats m c).toR.override_after_of_eq_none hw
  have hl : (dats m c).leavesExact w t = owns (c : Thread nD τ) ((cfg0.win w).stage (cfg0.slots t w)) fullShare ((dats m c).after w t) := by
    unfold Dat.leavesExact; rw [hlive]
  refine (Entails.of_eq hl.symm).trans (((dats m c).leaves_intro w t).trans (((dats m c).leaves_elim w t).trans ?_))
  iintro ⟨%X, %hX, H⟩
  iexists X
  isplitr
  · ipureintro; rw [e]; exact hX
  · iexact H

set_option maxHeartbeats 1600000 in
/-- The body at any point, on the inputs' blocks, any contents of the second-phase output's buffer, and contents of the
    resident buffer whose rows below 256 min(t, 16) are complete. -/
theorem sound_body (c : Dev nD) (t : Fin cfg0.N) (y7 : Vec F S512x128 .f32) (y8 : Vec F S4096x128 .f32)
    (h8 : Done m c (256 * min t.val 16) y8) :
    iprop((rd m c).Φ t.castSucc ∗ (rd m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare y7
        ∗ owns (c : Thread nD τ) (ms8 t) fullShare y8)
      ⊢ wp frame (wpE (defs₀ (F := F)) Variants.none c none) Set.univ (bodyAt0 t) (fun _ =>
        iprop((rd m c).Φ t.succ ∗ (rd m c).owesAt () t.succ
          ∗ (∃ X, ⌜(rd m c).after 0 t (iblk m c 0 t) X⌝ ∗ owns (c : Thread nD τ) (ms0 t) fullShare X)
          ∗ (∃ X, ⌜(rd m c).after 1 t (iblk m c 1 t) X⌝ ∗ owns (c : Thread nD τ) (ms1 t) fullShare X)
          ∗ (∃ X, ⌜(rd m c).after 2 t (iblk m c 2 t) X⌝ ∗ owns (c : Thread nD τ) (ms2 t) fullShare X)
          ∗ (∃ X, ⌜(rd m c).after 3 t (iblk m c 3 t) X⌝ ∗ owns (c : Thread nD τ) (ms3 t) fullShare X)
          ∗ (∃ X, ⌜(rd m c).after 4 t (iblk m c 4 t) X⌝ ∗ owns (c : Thread nD τ) (ms4 t) fullShare X)
          ∗ (∃ X, ⌜(rd m c).after 5 t (iblk m c 5 t) X⌝ ∗ owns (c : Thread nD τ) (ms5 t) fullShare X)
          ∗ (∃ X, ⌜(rd m c).after 6 t (iblk m c 6 t) X⌝ ∗ owns (c : Thread nD τ) (ms6 t) fullShare X)
          ∗ (∃ X, ⌜(rd m c).after 7 t y7 X⌝ ∗ owns (c : Thread nD τ) (ms7 t) fullShare X)
          ∗ (∃ X, ⌜(rd m c).after 8 t y8 X⌝ ∗ owns (c : Thread nD τ) (ms8 t) fullShare X))) := by
  rw [show (rd m c).Φ t.succ = (rd m c).Φ t.castSucc from rfl,
    show (rd m c).owesAt () t.succ = (rd m c).owesAt () t.castSucc from rfl]
  have hN : t.val < 48 := lt_of_lt_of_eq t.isLt (show cfg0.N = 48 from N_0)
  unfold bodyAt0
  by_cases h0 : t.val < 16
  · iintro ⟨HΦ, Ho, H0, H1, H2, H3, H4, H5, H6, H7, H8⟩
    iapply ((runA c (grid0.coords t) _ _ _ _ _ _ _ _ _ _ _ _ _ _ _ _ _ _ ((inA_iff t).mpr h0) (fun h => absurd ((inB_iff t).mp h) (by omega)) (256 * t.val) (off_eq t h0) (iblk m c 0 t) (iblk m c 1 t) (iblk m c 2 t) (iblk m c 3 t) (iblk m c 4 t) (iblk m c 5 t) (iblk m c 6 t) y7 y8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%X, %hX, H8⟩⟩
    isplitl [HΦ]; · iexact HΦ
    isplitl [Ho]; · iexact Ho
    isplitl [H0]; · iapply (in_post m c 0 rfl t (live0 t) _); iexact H0
    isplitl [H1]; · iapply (in_post m c 1 rfl t (live1 t) _); iexact H1
    isplitl [H2]; · iapply (in_post m c 2 rfl t (live2 t) _); iexact H2
    isplitl [H3]; · iapply (in_post m c 3 rfl t (live3 t) _); iexact H3
    isplitl [H4]; · iapply (in_post m c 4 rfl t (live4 t) _); iexact H4
    isplitl [H5]; · iapply (in_post m c 5 rfl t (live5 t) _); iexact H5
    isplitl [H6]; · iapply (in_post m c 6 rfl t (live6 t) _); iexact H6
    isplitl [H7]
    · iexists y7; isplitr
      · ipureintro; rw [after7]; intro h; omega
      · iexact H7
    iexists X; isplitr
    · ipureintro; rw [after8]; exact ⟨fun _ => hX, fun h => by omega⟩
    · iexact H8
  · have hB : 16 ≤ t.val := by omega
    have e8 : y8 = fused m c := by
      funext y
      rw [Nat.min_eq_right hB] at h8
      exact h8 y (by have : (y (0 : Fin 2)).val < 4096 := (y (0 : Fin 2)).isLt; omega)
    iintro ⟨HΦ, Ho, H0, H1, H2, H3, H4, H5, H6, H7, H8⟩
    iapply ((runB c (grid0.coords t) _ _ _ _ _ _ _ _ _ _ _ _ _ _ _ _ _ _ (fun h => h0 ((inA_iff t).mp h)) ((inB_iff t).mpr hB) (iblk m c 0 t) (iblk m c 1 t) (iblk m c 2 t) (iblk m c 3 t) (iblk m c 4 t) (iblk m c 5 t) (iblk m c 6 t) y7 y8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iapply (in_post m c 0 rfl t (live0 t) _); iexact H0
    isplitl [H1]; · iapply (in_post m c 1 rfl t (live1 t) _); iexact H1
    isplitl [H2]; · iapply (in_post m c 2 rfl t (live2 t) _); iexact H2
    isplitl [H3]; · iapply (in_post m c 3 rfl t (live3 t) _); iexact H3
    isplitl [H4]; · iapply (in_post m c 4 rfl t (live4 t) _); iexact H4
    isplitl [H5]; · iapply (in_post m c 5 rfl t (live5 t) _); iexact H5
    isplitl [H6]; · iapply (in_post m c 6 rfl t (live6 t) _); iexact H6
    isplitl [H7]
    · iexists _; isplitr; swap; · iexact H7
      ipureintro; rw [after7]; intro _; show k0_pay2 (iblk m c 6 t) y8 = propAt m c t; rw [e8]; rfl
    iexists y8; isplitr
    · ipureintro; rw [after8]; exact ⟨fun h => by omega, fun _ => rfl⟩
    · iexact H8

/-- The relational data's body obligation, at every point. -/
theorem obligation (c : Dev nD) : (rd m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have h8 := finds8 m c t.val t.isLt (Y 8) (hY 8)
  rw [e0, e1, e2, e3, e4, e5, e6]
  exact sound_body m c t (Y 7) (Y 8) h8

/-! ## The run and the frame -/

set_option backward.isDefEq.respectTransparency.types false in
/-- Every weakly fair execution of @main terminates; every input array ends as at entry, each output array at some
    contents the relational data allows after every write-back, every other unscoped buffer as at entry. -/
theorem run_main : θ_run defs (onTc (τ := τ) (main (F := F))) (s₀ m ρ) (Pipeline.RDat.FramePost (cfgs 0) (fun c => rd m c) (V m)) :=
  Pipeline.RDat.θ_run_frame cfgs (0 : Fin 1) launch0 defs₀ Variants.none (fun c => rd m c) m ρ main
    (hbody := fun c => obligation m c) (hshare := fun c => (rd m c).share_full fun _ => rfl)
    (howed := fun _ _ => rfl) (V := V m) (hmain := hmain m Variants.none) (hA := fun _ _ => rfl) (hΦ := fun _ _ => rfl)

/-- The frame: the run terminates and the seven argument arrays end unchanged (an input window's array is never
    written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (Eq.mp (congrFun ((rd m c).ArrAt_in 1 rfl _) _) ((h c).1 1)).trans (V_main_arg0 m c),
      (Eq.mp (congrFun ((rd m c).ArrAt_in 2 rfl _) _) ((h c).1 2)).trans (V_main_arg1 m c),
      (Eq.mp (congrFun ((rd m c).ArrAt_in 6 rfl _) _) ((h c).1 6)).trans (V_main_arg2 m c),
      (Eq.mp (congrFun ((rd m c).ArrAt_in 0 rfl _) _) ((h c).1 0)).trans (V_main_arg3 m c),
      (Eq.mp (congrFun ((rd m c).ArrAt_in 3 rfl _) _) ((h c).1 3)).trans (V_main_arg4 m c),
      (Eq.mp (congrFun ((rd m c).ArrAt_in 4 rfl _) _) ((h c).1 4)).trans (V_main_arg5 m c),
      (Eq.mp (congrFun ((rd m c).ArrAt_in 5 rfl _) _) ((h c).1 5)).trans (V_main_arg6 m c)⟩) (run_main m ρ)

end Cert.Kernel.Data

end
-- ==== Proof.KIBody.lean ====
/-
  The kernel body on whole staging buffers, one run per phase.

  The grid has 48 points. At a point of the first phase (points 0..15) the body reads the point's 256 rows of the
  hyperedge-by-node incidence matrix, all node embeddings, the point's 256 rows of the hyperedge embeddings and
  the three weight matrices, and writes 256 rows of the fused hyperedge messages into the resident buffer of
  4096 rows, at rows 256 t .. 256 t + 255; every other row of that buffer, and the other output's buffer, stay as
  found. At a point of the second phase (points 16..47) it reads 512 rows of the node-by-hyperedge incidence
  matrix and the whole resident buffer, and overwrites the other output's buffer with their product; the
  resident buffer stays as found. Both runs are stated over arbitrary contents of the two output buffers.
-/
import proofs.«178155_g20358144983738_cont_8to1_1615_5_alg».proof.Proof.Gen.KernelIdeal.Frame
import proofs.«178155_g20358144983738_cont_8to1_1615_5_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The two phases, from the grid coordinate -/

/-- The first conditional's test: the point is in the first phase. -/
abbrev inA (i : grid0.Coords) : Prop := k0_cond1 i = 1#1
/-- The second conditional's test: the point is in the second phase. -/
abbrev inB (i : grid0.Coords) : Prop := k0_cond2 i = 1#1

/-- The first phase is the points before point 16. -/
theorem inA_iff : ∀ t : Fin cfg0.N, inA (grid0.coords t) ↔ t.val < 16 :=
  (by decide +kernel : ∀ t : Fin grid0.N, inA (grid0.coords t) ↔ t.val < 16)
/-- The second phase is the points from point 16 on. -/
theorem inB_iff : ∀ t : Fin cfg0.N, inB (grid0.coords t) ↔ 16 ≤ t.val :=
  (by decide +kernel : ∀ t : Fin grid0.N, inB (grid0.coords t) ↔ 16 ≤ t.val)
/-- A first-phase point t stores at row 256 t, column 0. -/
theorem off_eq : ∀ t : Fin cfg0.N, t.val < 16 → k0_off1 (grid0.coords t) = ![256 * t.val, 0] :=
  (by decide +kernel : ∀ t : Fin grid0.N, t.val < 16 → k0_off1 (grid0.coords t) = ![256 * t.val, 0])

/-- Zero offsets of a rank-two rectangle, as the zero function. -/
theorem hz2 : (![0, 0] : Fin 2 → ℕ) = fun _ => 0 := by
  funext a; match a with | ⟨0, _⟩ => rfl | ⟨1, _⟩ => rfl

/-! ## What each phase computes -/

/-- The 256 rows of fused hyperedge messages a first-phase point computes from its blocks: x0 the 256 rows of the
    incidence matrix, x1 the node embeddings, x2 the 256 rows of hyperedge embeddings, x3 / x4 the node and hyperedge
    weights, x5 the fusion weights, whose top and bottom halves are read apart. -/
def fusedRows (x0 : Vec F S256x16384 .f32) (x1 : Vec F S16384x128 .f32) (x2 : Vec F S256x128 .f32)
    (x3 x4 : Vec F S128x128 .f32) (x5 : Vec F S256x128 .f32) : FVec F S256x128 .f32 :=
  k0_pay1 x0 x1 x3 (View.ld x5 (Rect.unit (s := S256x128) ![0, 0] S128x128.size inb_S256x128_S128x128_0_0)) x4
    (View.ld x5 (Rect.unit (s := S256x128) ![128, 0] S128x128.size inb_S256x128_S128x128_128_0)) x2

/-- Rows o .. o + 255 of X are the rows of w, every other row of X is that row of Y. -/
def RowsStored (o : ℕ) (w : FVec F S256x128 .f32) (Y X : Vec F S4096x128 .f32) : Prop :=
  (∀ (y : S4096x128.Idx) (x : S256x128.Idx), (y (0 : Fin 2)).val = o + (x (0 : Fin 2)).val →
      (y (1 : Fin 2)).val = (x (1 : Fin 2)).val → X y = w x)
  ∧ ∀ y : S4096x128.Idx, ((y (0 : Fin 2)).val < o ∨ o + 256 ≤ (y (0 : Fin 2)).val) → X y = Y y

set_option maxHeartbeats 1600000 in
/-- A first-phase point: the inputs' buffers and the second-phase output's buffer come back as found; the resident
    buffer comes back with the point's 256 rows stored at row o, the rest as found. -/
theorem runA (c : Dev nD) (i : grid0.Coords) (arg1 : Memref sig .tc .vmem S256x16384 .f32) (harg1 : arg1.IsWhole) (arg2 : Memref sig .tc .vmem S16384x128 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S256x128 .f32) (harg6 : arg6.IsWhole) (arg7 : Memref sig .tc .vmem S512x4096 .f32) (harg7 : arg7.IsWhole) (arg8 : Memref sig .tc .vmem S512x128 .f32) (harg8 : arg8.IsWhole) (arg9 : Memref sig .tc .vmem S4096x128 .f32) (harg9 : arg9.IsWhole) (hc0 : inA i) (hc1 : ¬inB i)
    (o : ℕ) (ho : k0_off1 i = ![o, 0])
    (x0 : Vec F S256x16384 .f32) (x1 : Vec F S16384x128 .f32) (x2 : Vec F S256x128 .f32) (x3 : Vec F S128x128 .f32) (x4 : Vec F S128x128 .f32) (x5 : Vec F S256x128 .f32) (x6 : Vec F S512x4096 .f32) (y7 : Vec F S512x128 .f32) (y8 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7
                ∗ (∃ X, ⌜RowsStored o (fusedRows x0 x1 x2 x3 x4 x5) y8 X⌝ ∗ owns (c : Thread nD τ) arg9 fullShare X)) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9) K := by
    intro E K
    simp only [cc0__merged_kernel_eq_skeleton]; unfold cc0__merged_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _
    isplitr; swap
    · iexists _; isplitr; swap; · iexact H8
      ipureintro; rfl
    ipureintro
    refine ⟨fun y x h0 h1 => ?_, fun y h => ?_⟩
    · refine (View.read_writes_cons_rows_of_mem arg9.view _ _ _ [] y x ho h0 h1).trans ?_
      unfold fusedRows
      simp only [View.readAt_eq_ld, harg1.read_unread, harg2.read_unread, harg3.read_unread, harg4.read_unread,
        harg5.read_unread, harg6.read_unread, View.ld_unit_zero (S := S256x16384) hz2,
        View.ld_unit_zero (S := S16384x128) hz2, View.ld_unit_zero (S := S128x128) hz2,
        View.ld_unit_zero (S := S256x128) hz2]
    · refine (View.read_writes_cons_rows_of_not_mem arg9.view _ _ _ [] y ho rfl h).trans ?_
      show arg9.view.read (Elt F) (harg9.unread y8) y = y8 y
      rw [harg9.read_unread]

set_option maxHeartbeats 1600000 in
/-- A second-phase point: the inputs' buffers and the resident buffer come back as found; the other output's buffer
    comes back holding the product of the point's 512 incidence rows with the resident buffer's contents. -/
theorem runB (c : Dev nD) (i : grid0.Coords) (arg1 : Memref sig .tc .vmem S256x16384 .f32) (harg1 : arg1.IsWhole) (arg2 : Memref sig .tc .vmem S16384x128 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S256x128 .f32) (harg6 : arg6.IsWhole) (arg7 : Memref sig .tc .vmem S512x4096 .f32) (harg7 : arg7.IsWhole) (arg8 : Memref sig .tc .vmem S512x128 .f32) (harg8 : arg8.IsWhole) (arg9 : Memref sig .tc .vmem S4096x128 .f32) (harg9 : arg9.IsWhole) (hc0 : ¬inA i) (hc1 : inB i)
    (x0 : Vec F S256x16384 .f32) (x1 : Vec F S16384x128 .f32) (x2 : Vec F S256x128 .f32) (x3 : Vec F S128x128 .f32) (x4 : Vec F S128x128 .f32) (x5 : Vec F S256x128 .f32) (x6 : Vec F S512x4096 .f32) (y7 : Vec F S512x128 .f32) (y8 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare (k0_pay2 x6 y8) ∗ owns (c : Thread nD τ) arg9 fullShare y8) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9) K := by
    intro E K
    simp only [cc0__merged_kernel_eq_skeleton]; unfold cc0__merged_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      rw [View.read_writes_eq_canon _ _ _ (fun y => ⟨_, List.mem_singleton_self _, View.mem_set_unit_zero hz2 inb_S512x128_S512x128_0_0 y⟩),
        View.canon_unit_zero hz2]
      simp only [View.readAt_eq_ld, harg7.read_unread, harg9.read_unread, View.ld_unit_zero (S := S512x4096) hz2,
        View.ld_unit_zero (S := S4096x128) hz2]
    iexists _; isplitr; · ipureintro; exact harg9.read_unread _
    iexact H8

end Cert.KernelIdeal.Body

end
-- ==== Proof.KIData.lean ====
/-
  The pipeline's proof data, the body obligation, the run and the frame.

  The inputs' staging buffers hold their blocks at every point. The resident output buffer (4096 rows) is filled 256
  rows at a time by the 16 points of the first phase and is only read by the 32 points of the second, so what it
  holds when the body runs at point t is: rows below 256 min(t, 16) are the fused rows (each row r computed at point
  r / 256), the others whatever the buffer held when the region was entered. Its one write-back is at the last point.
  The other output's buffer is left alone by the first phase and overwritten by each point of the second with that
  point's 512 incidence rows times the resident buffer, which by then is complete; it is written back at every point
  of the second phase.
-/
import proofs.«178155_g20358144983738_cont_8to1_1615_5_alg».proof.Proof.KIBody
import Idealize.ShloMosaic.Lib.ValueIdx
import Idealize.ShloMosaic.Lib.Pipeline.Kit

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The resident output is never fetched. -/
theorem nofetch8 : ∀ t : Fin cfg0.N, (cfg0.win 8).fetch t = false :=
  (by decide +kernel : ∀ t : Fin grid0.N, win0_8.fetch t = false)

/-- Each window's current staging buffer at point t. -/
abbrev ms0 (t : Fin cfg0.N) : Memref sig .tc .vmem S256x16384 .f32 := win0_0.stage (cfg0.slots t 0)
abbrev ms1 (t : Fin cfg0.N) : Memref sig .tc .vmem S16384x128 .f32 := win0_1.stage (cfg0.slots t 1)
abbrev ms2 (t : Fin cfg0.N) : Memref sig .tc .vmem S256x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S256x128 .f32 := win0_5.stage (cfg0.slots t 5)
abbrev ms6 (t : Fin cfg0.N) : Memref sig .tc .vmem S512x4096 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S4096x128 .f32 := win0_8.stage (cfg0.slots t 8)

/-! ## The fused rows as one array -/

/-- The first-phase point that computes row r of the fused messages: r / 256. -/
def ptOf (y : S4096x128.Idx) : Fin cfg0.N := ⟨(y (0 : Fin 2)).val / 256, by
  have h : (y (0 : Fin 2)).val < 4096 := (y (0 : Fin 2)).isLt
  rw [show cfg0.N = 48 from N_0]; omega⟩

/-- Where row r sits among that point's 256 rows: r % 256, same column. -/
def rowIn (y : S4096x128.Idx) : S256x128.Idx :=
  ValueIdx.ix2 (⟨(y (0 : Fin 2)).val % 256, Nat.mod_lt _ (by decide)⟩ : Fin 256) (⟨(y (1 : Fin 2)).val, (y (1 : Fin 2)).isLt⟩ : Fin 128)

/-- The rows a first-phase point t computes, from its blocks. -/
def rowsAt (c : Dev nD) (t : Fin cfg0.N) : FVec F S256x128 .f32 :=
  fusedRows (iblk m c 0 t) (iblk m c 1 t) (iblk m c 2 t) (iblk m c 3 t) (iblk m c 4 t) (iblk m c 5 t)

/-- The fused hyperedge messages, all 4096 rows. -/
def fused (c : Dev nD) : Vec F S4096x128 .f32 := fun y => rowsAt m c (ptOf y) (rowIn y)

/-- The 512 rows a second-phase point t computes. -/
def propAt (c : Dev nD) (t : Fin cfg0.N) : FVec F S512x128 .f32 := k0_pay2 (iblk m c 6 t) (fused m c)

/-- Rows below n hold the fused rows. -/
def Done (c : Dev nD) (n : ℕ) (Y : Vec F S4096x128 .f32) : Prop :=
  ∀ y : S4096x128.Idx, (y (0 : Fin 2)).val < n → Y y = fused m c y

/-! ## The proof data -/

/-- Exact data for the inputs (each buffer holds its block after the body, as before it); the outputs unnamed here. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- What a point may leave in the second-phase output's buffer: from point 16 on, its 512 rows. -/
def rel7 (c : Dev nD) (t : Fin cfg0.N) (Y X : Vec F S512x128 .f32) : Prop := 16 ≤ t.val → X = propAt m c t

/-- What a point may leave in the resident buffer: a first-phase point stores its 256 rows at row 256 t and keeps the
    rest; a second-phase point leaves it as found. -/
def rel8 (c : Dev nD) (t : Fin cfg0.N) (Y X : Vec F S4096x128 .f32) : Prop :=
  (t.val < 16 → RowsStored (256 * t.val) (rowsAt m c t) Y X) ∧ (16 ≤ t.val → X = Y)

/-- The two output windows' relations. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => none
    | ⟨6, _⟩ => none
    | ⟨7, _⟩ => some (rel7 m c)
    | ⟨8, _⟩ => some (rel8 m c)

/-- The relational data: the inputs' exact data, the outputs constrained by rel7 / rel8. -/
def rd (c : Dev nD) : RDat τ (Elt F) Unit ℕ (UR sig nD τ) ℕ cfg0 c := (dats m c).toR.override (ovr m c)

theorem after7 (c : Dev nD) : (rd m c).after 7 = rel7 m c := (dats m c).toR.override_after_of_eq_some rfl
theorem after8 (c : Dev nD) : (rd m c).after 8 = rel8 m c := (dats m c).toR.override_after_of_eq_some rfl

/-- What an input's buffer holds when the body runs: the window's block. -/
theorem finds_in (c : Dev nD) (w : Fin cfg0.W) (hw : ovr m c w = none) (t : Fin cfg0.N)
    (Y : (cfg0.win w).block.Idx → Elt F (cfg0.win w).elt) (h : (rd m c).Finds w t Y) :
    ∃ d, Y = (dats m c).before w t d :=
  (dats m c).toR_finds w t Y (((dats m c).toR.override_finds hw t Y).mp h)

theorem finds0 (c : Dev nD) (t : Fin cfg0.N) (Y) (h : (rd m c).Finds 0 t Y) : Y = iblk m c 0 t := by
  obtain ⟨d, rfl⟩ := finds_in m c 0 rfl t Y h
  exact before0_0_of m (dats m c) rfl (fun _ => rfl) t d
theorem finds1 (c : Dev nD) (t : Fin cfg0.N) (Y) (h : (rd m c).Finds 1 t Y) : Y = iblk m c 1 t := by
  obtain ⟨d, rfl⟩ := finds_in m c 1 rfl t Y h
  exact before0_1_of m (dats m c) rfl (fun _ => rfl) t d
theorem finds2 (c : Dev nD) (t : Fin cfg0.N) (Y) (h : (rd m c).Finds 2 t Y) : Y = iblk m c 2 t := by
  obtain ⟨d, rfl⟩ := finds_in m c 2 rfl t Y h
  exact before0_2_of m (dats m c) rfl (fun _ => rfl) t d
theorem finds3 (c : Dev nD) (t : Fin cfg0.N) (Y) (h : (rd m c).Finds 3 t Y) : Y = iblk m c 3 t := by
  obtain ⟨d, rfl⟩ := finds_in m c 3 rfl t Y h
  exact before0_3_of m (dats m c) rfl (fun _ => rfl) t d
theorem finds4 (c : Dev nD) (t : Fin cfg0.N) (Y) (h : (rd m c).Finds 4 t Y) : Y = iblk m c 4 t := by
  obtain ⟨d, rfl⟩ := finds_in m c 4 rfl t Y h
  exact before0_4_of m (dats m c) rfl (fun _ => rfl) t d
theorem finds5 (c : Dev nD) (t : Fin cfg0.N) (Y) (h : (rd m c).Finds 5 t Y) : Y = iblk m c 5 t := by
  obtain ⟨d, rfl⟩ := finds_in m c 5 rfl t Y h
  exact before0_5_of m (dats m c) rfl (fun _ => rfl) t d
theorem finds6 (c : Dev nD) (t : Fin cfg0.N) (Y) (h : (rd m c).Finds 6 t Y) : Y = iblk m c 6 t := by
  obtain ⟨d, rfl⟩ := finds_in m c 6 rfl t Y h
  exact before0_6_of m (dats m c) rfl (fun _ => rfl) t d

/-! ## What the resident buffer holds, point by point -/

/-- One first-phase point extends the completed rows by 256. -/
theorem done_step (c : Dev nD) (s : Fin cfg0.N) (hs : s.val < 16) (Y X : Vec F S4096x128 .f32)
    (hY : Done m c (256 * s.val) Y) (hX : RowsStored (256 * s.val) (rowsAt m c s) Y X) : Done m c (256 * (s.val + 1)) X := by
  intro y hy
  by_cases hlt : (y (0 : Fin 2)).val < 256 * s.val
  · rw [hX.2 y (Or.inl hlt)]; exact hY y hlt
  · have hpt : ptOf y = s := Fin.ext (by show (y (0 : Fin 2)).val / 256 = s.val; omega)
    rw [hX.1 y (rowIn y) (by show (y (0 : Fin 2)).val = 256 * s.val + (y (0 : Fin 2)).val % 256; omega) rfl]
    show rowsAt m c s (rowIn y) = rowsAt m c (ptOf y) (rowIn y)
    rw [hpt]

/-- When the body runs at point n, the rows below 256 min(n, 16) of the resident buffer are complete. -/
theorem finds8 (c : Dev nD) : ∀ (n : ℕ) (hn : n < cfg0.N) (Y : Vec F S4096x128 .f32),
    (rd m c).Finds 8 ⟨n, hn⟩ Y → Done m c (256 * min n 16) Y
  | 0, _, _, _ => fun y hy => absurd hy (by simp)
  | n + 1, hn, Y, h => by
    have hn' : n < cfg0.N := by omega
    rw [(rd m c).finds_of_pos (nofetch8 _) (by simp)] at h
    have hfl : (cfg0.win 8).flush ⟨n, hn'⟩ = false := by
      have hN : n + 1 < 48 := lt_of_lt_of_eq hn (show cfg0.N = 48 from N_0)
      cases hq : (cfg0.win 8).flush ⟨n, hn'⟩
      · rfl
      · have := (flush0_8 ⟨n, hn'⟩).mp hq; simp only at this; omega
    rcases h with h | ⟨Y', hY', hrel⟩
    · exact absurd (show (cfg0.win 8).flush ⟨n, hn'⟩ = true from h) (by rw [hfl]; exact Bool.false_ne_true)
    · have ih := finds8 c n hn' Y' hY'
      rw [after8] at hrel
      by_cases hs : n < 16
      · have := done_step m c ⟨n, hn'⟩ hs Y' Y (by rwa [Nat.min_eq_left (Nat.le_of_lt hs)] at ih) (hrel.1 hs)
        rwa [Nat.min_eq_left (by omega : n + 1 ≤ 16)]
      · rw [hrel.2 (by simpa using hs)]
        rw [Nat.min_eq_right (by omega : 16 ≤ n)] at ih
        rwa [Nat.min_eq_right (by omega : 16 ≤ n + 1)]

/-- In the second phase the resident buffer holds the fused messages. -/
theorem finds8_B (c : Dev nD) (t : Fin cfg0.N) (ht : 16 ≤ t.val) (Y : Vec F S4096x128 .f32)
    (h : (rd m c).Finds 8 t Y) : Y = fused m c := by
  funext y
  have hd := finds8 m c t.val t.isLt Y h
  rw [Nat.min_eq_right ht] at hd
  exact hd y (by have : (y (0 : Fin 2)).val < 4096 := (y (0 : Fin 2)).isLt; omega)

/-! ## The body obligation -/

/-- An input's buffer, handed back holding its block, is handed back as the relational data asks. -/
theorem in_post (c : Dev nD) (w : Fin cfg0.W) (hw : ovr m c w = none) (t : Fin cfg0.N)
    (hlive : cfg0.idle w (cfg0.grid.coords t) = false) (Y : (cfg0.win w).block.Idx → Elt F (cfg0.win w).elt) :
    owns (c : Thread nD τ) ((cfg0.win w).stage (cfg0.slots t w)) fullShare ((dats m c).after w t)
      ⊢ (iprop(∃ X, ⌜(rd m c).after w t Y X⌝ ∗ owns (c : Thread nD τ) ((cfg0.win w).stage (cfg0.slots t w)) fullShare X) : sProp 𝕄) := by
  have e : (rd m c).after w = (dats m c).toR.after w := (dats m c).toR.override_after_of_eq_none hw
  have hl : (dats m c).leavesExact w t = owns (c : Thread nD τ) ((cfg0.win w).stage (cfg0.slots t w)) fullShare ((dats m c).after w t) := by
    unfold Dat.leavesExact; rw [hlive]
  refine (Entails.of_eq hl.symm).trans (((dats m c).leaves_intro w t).trans (((dats m c).leaves_elim w t).trans ?_))
  iintro ⟨%X, %hX, H⟩
  iexists X
  isplitr
  · ipureintro; rw [e]; exact hX
  · iexact H

set_option maxHeartbeats 1600000 in
/-- The body at any point, on the inputs' blocks, any contents of the second-phase output's buffer, and contents of the
    resident buffer whose rows below 256 min(t, 16) are complete. -/
theorem sound_body (c : Dev nD) (t : Fin cfg0.N) (y7 : Vec F S512x128 .f32) (y8 : Vec F S4096x128 .f32)
    (h8 : Done m c (256 * min t.val 16) y8) :
    iprop((rd m c).Φ t.castSucc ∗ (rd m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare y7
        ∗ owns (c : Thread nD τ) (ms8 t) fullShare y8)
      ⊢ wp frame (wpE (defs₀ (F := F)) Variants.none c none) Set.univ (bodyAt0 t) (fun _ =>
        iprop((rd m c).Φ t.succ ∗ (rd m c).owesAt () t.succ
          ∗ (∃ X, ⌜(rd m c).after 0 t (iblk m c 0 t) X⌝ ∗ owns (c : Thread nD τ) (ms0 t) fullShare X)
          ∗ (∃ X, ⌜(rd m c).after 1 t (iblk m c 1 t) X⌝ ∗ owns (c : Thread nD τ) (ms1 t) fullShare X)
          ∗ (∃ X, ⌜(rd m c).after 2 t (iblk m c 2 t) X⌝ ∗ owns (c : Thread nD τ) (ms2 t) fullShare X)
          ∗ (∃ X, ⌜(rd m c).after 3 t (iblk m c 3 t) X⌝ ∗ owns (c : Thread nD τ) (ms3 t) fullShare X)
          ∗ (∃ X, ⌜(rd m c).after 4 t (iblk m c 4 t) X⌝ ∗ owns (c : Thread nD τ) (ms4 t) fullShare X)
          ∗ (∃ X, ⌜(rd m c).after 5 t (iblk m c 5 t) X⌝ ∗ owns (c : Thread nD τ) (ms5 t) fullShare X)
          ∗ (∃ X, ⌜(rd m c).after 6 t (iblk m c 6 t) X⌝ ∗ owns (c : Thread nD τ) (ms6 t) fullShare X)
          ∗ (∃ X, ⌜(rd m c).after 7 t y7 X⌝ ∗ owns (c : Thread nD τ) (ms7 t) fullShare X)
          ∗ (∃ X, ⌜(rd m c).after 8 t y8 X⌝ ∗ owns (c : Thread nD τ) (ms8 t) fullShare X))) := by
  rw [show (rd m c).Φ t.succ = (rd m c).Φ t.castSucc from rfl,
    show (rd m c).owesAt () t.succ = (rd m c).owesAt () t.castSucc from rfl]
  have hN : t.val < 48 := lt_of_lt_of_eq t.isLt (show cfg0.N = 48 from N_0)
  unfold bodyAt0
  by_cases h0 : t.val < 16
  · iintro ⟨HΦ, Ho, H0, H1, H2, H3, H4, H5, H6, H7, H8⟩
    iapply ((runA c (grid0.coords t) _ _ _ _ _ _ _ _ _ _ _ _ _ _ _ _ _ _ ((inA_iff t).mpr h0) (fun h => absurd ((inB_iff t).mp h) (by omega)) (256 * t.val) (off_eq t h0) (iblk m c 0 t) (iblk m c 1 t) (iblk m c 2 t) (iblk m c 3 t) (iblk m c 4 t) (iblk m c 5 t) (iblk m c 6 t) y7 y8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%X, %hX, H8⟩⟩
    isplitl [HΦ]; · iexact HΦ
    isplitl [Ho]; · iexact Ho
    isplitl [H0]; · iapply (in_post m c 0 rfl t (live0 t) _); iexact H0
    isplitl [H1]; · iapply (in_post m c 1 rfl t (live1 t) _); iexact H1
    isplitl [H2]; · iapply (in_post m c 2 rfl t (live2 t) _); iexact H2
    isplitl [H3]; · iapply (in_post m c 3 rfl t (live3 t) _); iexact H3
    isplitl [H4]; · iapply (in_post m c 4 rfl t (live4 t) _); iexact H4
    isplitl [H5]; · iapply (in_post m c 5 rfl t (live5 t) _); iexact H5
    isplitl [H6]; · iapply (in_post m c 6 rfl t (live6 t) _); iexact H6
    isplitl [H7]
    · iexists y7; isplitr
      · ipureintro; rw [after7]; intro h; omega
      · iexact H7
    iexists X; isplitr
    · ipureintro; rw [after8]; exact ⟨fun _ => hX, fun h => by omega⟩
    · iexact H8
  · have hB : 16 ≤ t.val := by omega
    have e8 : y8 = fused m c := by
      funext y
      rw [Nat.min_eq_right hB] at h8
      exact h8 y (by have : (y (0 : Fin 2)).val < 4096 := (y (0 : Fin 2)).isLt; omega)
    iintro ⟨HΦ, Ho, H0, H1, H2, H3, H4, H5, H6, H7, H8⟩
    iapply ((runB c (grid0.coords t) _ _ _ _ _ _ _ _ _ _ _ _ _ _ _ _ _ _ (fun h => h0 ((inA_iff t).mp h)) ((inB_iff t).mpr hB) (iblk m c 0 t) (iblk m c 1 t) (iblk m c 2 t) (iblk m c 3 t) (iblk m c 4 t) (iblk m c 5 t) (iblk m c 6 t) y7 y8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iapply (in_post m c 0 rfl t (live0 t) _); iexact H0
    isplitl [H1]; · iapply (in_post m c 1 rfl t (live1 t) _); iexact H1
    isplitl [H2]; · iapply (in_post m c 2 rfl t (live2 t) _); iexact H2
    isplitl [H3]; · iapply (in_post m c 3 rfl t (live3 t) _); iexact H3
    isplitl [H4]; · iapply (in_post m c 4 rfl t (live4 t) _); iexact H4
    isplitl [H5]; · iapply (in_post m c 5 rfl t (live5 t) _); iexact H5
    isplitl [H6]; · iapply (in_post m c 6 rfl t (live6 t) _); iexact H6
    isplitl [H7]
    · iexists _; isplitr; swap; · iexact H7
      ipureintro; rw [after7]; intro _; show k0_pay2 (iblk m c 6 t) y8 = propAt m c t; rw [e8]; rfl
    iexists y8; isplitr
    · ipureintro; rw [after8]; exact ⟨fun h => by omega, fun _ => rfl⟩
    · iexact H8

/-- The relational data's body obligation, at every point. -/
theorem obligation (c : Dev nD) : (rd m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have h8 := finds8 m c t.val t.isLt (Y 8) (hY 8)
  rw [e0, e1, e2, e3, e4, e5, e6]
  exact sound_body m c t (Y 7) (Y 8) h8

/-! ## The run and the frame -/

set_option backward.isDefEq.respectTransparency.types false in
/-- Every weakly fair execution of @main terminates; every input array ends as at entry, each output array at some
    contents the relational data allows after every write-back, every other unscoped buffer as at entry. -/
theorem run_main : θ_run defs (onTc (τ := τ) (main (F := F))) (s₀ m ρ) (Pipeline.RDat.FramePost (cfgs 0) (fun c => rd m c) (V m)) :=
  Pipeline.RDat.θ_run_frame cfgs (0 : Fin 1) launch0 defs₀ Variants.none (fun c => rd m c) m ρ main
    (hbody := fun c => obligation m c) (hshare := fun c => (rd m c).share_full fun _ => rfl)
    (howed := fun _ _ => rfl) (V := V m) (hmain := hmain m Variants.none) (hA := fun _ _ => rfl) (hΦ := fun _ _ => rfl)

/-- The frame: the run terminates and the seven argument arrays end unchanged (an input window's array is never
    written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (Eq.mp (congrFun ((rd m c).ArrAt_in 1 rfl _) _) ((h c).1 1)).trans (V_main_arg0 m c),
      (Eq.mp (congrFun ((rd m c).ArrAt_in 2 rfl _) _) ((h c).1 2)).trans (V_main_arg1 m c),
      (Eq.mp (congrFun ((rd m c).ArrAt_in 6 rfl _) _) ((h c).1 6)).trans (V_main_arg2 m c),
      (Eq.mp (congrFun ((rd m c).ArrAt_in 0 rfl _) _) ((h c).1 0)).trans (V_main_arg3 m c),
      (Eq.mp (congrFun ((rd m c).ArrAt_in 3 rfl _) _) ((h c).1 3)).trans (V_main_arg4 m c),
      (Eq.mp (congrFun ((rd m c).ArrAt_in 4 rfl _) _) ((h c).1 4)).trans (V_main_arg5 m c),
      (Eq.mp (congrFun ((rd m c).ArrAt_in 5 rfl _) _) ((h c).1 5)).trans (V_main_arg6 m c)⟩) (run_main m ρ)

end Cert.KernelIdeal.Data

end
-- ==== Proof.LibRelationalCover.lean ====
/-
  Relational pipeline proof data whose write-backs are the blocks of ONE whole-array contents.

  For relational proof data the array of an output window, after the write-backs of the points below a point, is
  known only as "some contents it may then hold": its entry contents overwritten, in point order, at each
  flushing point's block by the moved part of some contents the body may have left there. If at every flushing
  point whatever the body may have left has, as its moved part, that point's block of one fixed contents G of the
  whole array, then every index that some flushing point's block covers holds G's entry after the run — a later
  point covering it again writes the same value, an earlier one is overwritten — and when the flushed blocks cover
  the array the array is G. General in the configuration, the window and the value type.
-/
import Idealize.ShloMosaic.Lib.Pipeline.Value

noncomputable section

namespace Cert.RelationalCover

open Idealize.ShloMosaic Idealize.ShloMosaic.Pipeline Idealize.SL Idealize.SL.Sem Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- One step of the relation: below the grid's end, at a flushing point, the array is some earlier contents with the
    point's block overwritten by the moved part of something the body may have left; otherwise it is unchanged. -/
theorem arrAt_succ_iff (w : Fin cfg.W) (n : Nat) (F : Buf Val ((cfg.win w).arr.view.loc (c.tc : Thread nD τ))) :
    rd.ArrAt w (n + 1) F ↔
      if h : n < cfg.N then
        if (cfg.win w).flush ⟨n, h⟩ = true then rd.ArrStep w ⟨n, h⟩ (rd.ArrAt w n) F else rd.ArrAt w n F
      else rd.ArrAt w n F := by
  simp only [RDat.ArrAt]
  by_cases h : n < cfg.N
  · rw [dif_pos h, dif_pos h]
    by_cases hf : (cfg.win w).flush ⟨n, h⟩ = true
    · rw [if_pos hf, if_pos hf]
    · rw [if_neg hf, if_neg hf]
  · rw [dif_neg h, dif_neg h]

/-- An index in a flushed block below n holds G's entry after the write-backs below n. -/
theorem arrAt_apply_of_mem (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    rw [arrAt_succ_iff] at hF
    by_cases hn : n < cfg.N
    swap
    · rw [dif_neg hn] at hF
      exact arrAt_apply_of_mem w G hG n F hF t i (by have := t.isLt; omega) hf hi
    rw [dif_pos hn] at hF
    by_cases hfn : (cfg.win w).flush ⟨n, hn⟩ = true
    · rw [if_pos hfn] at hF
      obtain ⟨G₀, X, hG₀, hX, rfl⟩ := hF
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by
          rw [View.setOn_univ]; have : t = ⟨n, hn⟩ := Fin.ext e; exact this ▸ hi)
        exact arrAt_apply_of_mem w G hG n G₀ hG₀ t i (by omega) hf hi
    · rw [if_neg hfn] at hF
      have htn : t.val ≠ n := fun e => hfn (by have : t = ⟨n, hn⟩ := Fin.ext e; exact this ▸ hf)
      exact arrAt_apply_of_mem w G hG n F hF t i (by omega) hf hi

/-- When the flushed blocks cover the array, whatever the array may hold after the run is G. -/
theorem arrAt_eq_of_cover (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact arrAt_apply_of_mem rd w G hG cfg.N F hF t i t.isLt hf hi

end Cert.RelationalCover

end
-- ==== Proof.KIValue.lean ====
/-
  The two output arrays after the run, as functions of the argument arrays.

  The resident output window's one write-back, at the last point, writes the whole array of fused messages. The other
  output window's write-backs, at the points of the second phase, write 512 rows each: point t writes rows
  512 (t - 16) .. 512 (t - 16) + 511, which are those rows of one array whose row r is computed at point 16 + r / 512.
  In both cases the flushed blocks cover the array, so the array ends as that one function.
-/
import proofs.«178155_g20358144983738_cont_8to1_1615_5_alg».proof.Proof.KIData
import proofs.«178155_g20358144983738_cont_8to1_1615_5_alg».proof.Proof.LibRelationalCover

set_option maxRecDepth 16384

noncomputable section

namespace Cert.KernelIdeal.Final

open Cert.KernelIdeal Cert.KernelIdeal.Gen Cert.KernelIdeal.Body Cert.KernelIdeal.Data
open Idealize.ShloMosaic Idealize.ShloMosaic.TcCoe
open Idealize.SL Idealize.SL.Sem
open Idealize.ShloMosaic.Pipeline (Dat RDat Cfg Window)

variable {F : FTy → Type} [FloatOps F]

variable (m : (ℓ : Loc nD τ sig) → Buf (Elt F) ℓ) (ρ : Dev nD → PrngReg)

/-! ## The schedule and the index maps of the two output windows -/

/-- The second-phase output is written back at every point of the second phase and at no other. -/
theorem flush7 : ∀ t : Fin cfg0.N, (cfg0.win 7).flush t = true ↔ 16 ≤ t.val :=
  (by decide +kernel : ∀ t : Fin grid0.N, win0_7.flush t = true ↔ 16 ≤ t.val)
/-- Its block at a second-phase point t is block t - 16. -/
theorem idx7 : ∀ t : Fin cfg0.N, 16 ≤ t.val → win0_7.index t (0 : Fin 2) = t.val - 16 ∧ win0_7.index t (1 : Fin 2) = 0 :=
  (by decide +kernel : ∀ t : Fin grid0.N, 16 ≤ t.val → win0_7.index t (0 : Fin 2) = t.val - 16 ∧ win0_7.index t (1 : Fin 2) = 0)
/-- The resident output's block is always block 0. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## The propagated messages as one array -/

/-- The second-phase point that computes row r: 16 + r / 512. -/
def pt7 (i : S16384x128.Idx) : Fin cfg0.N := ⟨16 + (i (0 : Fin 2)).val / 512, by
  have h : (i (0 : Fin 2)).val < 16384 := (i (0 : Fin 2)).isLt
  rw [show cfg0.N = 48 from N_0]; omega⟩

/-- Where row r sits among that point's 512 rows. -/
def rowIn7 (i : S16384x128.Idx) : S512x128.Idx :=
  ValueIdx.ix2 (⟨(i (0 : Fin 2)).val % 512, Nat.mod_lt _ (by decide)⟩ : Fin 512) (⟨(i (1 : Fin 2)).val, (i (1 : Fin 2)).isLt⟩ : Fin 128)

/-- The propagated messages, all 16384 rows. -/
def prop (c : Dev nD) : S16384x128.Idx → Elt F .f32 := fun i => propAt m c (pt7 i) (rowIn7 i)

/-! ## What the write-backs write -/

/-- The resident window's write-back writes the fused messages. -/
theorem wb8 (c : Dev nD) (t : Fin cfg0.N) (X : (cfg0.win 8).block.Idx → Elt F (cfg0.win 8).elt)
    (hf : (cfg0.win 8).flush t = true) (hL : (rd m c).Leaves 8 t X) :
    (cfg0.win 8).cut (cfg0.grid.coords t) X = ((cfg0.win 8).blk t).view.read (Elt F) (fused m c) := by
  obtain ⟨Y, hY, hrel⟩ := hL
  have hN : t.val < 48 := lt_of_lt_of_eq t.isLt (show cfg0.N = 48 from N_0)
  have ht : t.val = 47 := by have := (flush0_8 t).mp hf; omega
  rw [after8] at hrel
  have e : X = Y := hrel.2 (by omega)
  have eY : Y = fused m c := finds8_B m c t (by omega) Y hY
  rw [e, eY]
  obtain ⟨i0, i1⟩ := idx8 t
  funext j
  show fused m c j = fused m c (((cfg0.win 8).blk t).view.emb j)
  congr 1
  funext a; apply Fin.ext
  match a with
  | ⟨0, _⟩ => show (j 0).val = win0_8.index t (0 : Fin 2) * 4096 + 1 * (j 0).val; omega
  | ⟨1, _⟩ => show (j 1).val = win0_8.index t (1 : Fin 2) * 128 + 1 * (j 1).val; omega

/-- A second-phase point's write-back writes its 512 rows of the propagated messages. -/
theorem wb7 (c : Dev nD) (t : Fin cfg0.N) (X : (cfg0.win 7).block.Idx → Elt F (cfg0.win 7).elt)
    (hf : (cfg0.win 7).flush t = true) (hL : (rd m c).Leaves 7 t X) :
    (cfg0.win 7).cut (cfg0.grid.coords t) X = ((cfg0.win 7).blk t).view.read (Elt F) (prop m c) := by
  obtain ⟨Y, hY, hrel⟩ := hL
  have hN : t.val < 48 := lt_of_lt_of_eq t.isLt (show cfg0.N = 48 from N_0)
  have ht : 16 ≤ t.val := (flush7 t).mp hf
  rw [after7] at hrel
  have e : X = propAt m c t := hrel ht
  rw [e]
  obtain ⟨i0, i1⟩ := idx7 t ht
  funext j
  show propAt m c t j = prop m c (((cfg0.win 7).blk t).view.emb j)
  have hj0 : (j 0).val < 512 := (j 0).isLt
  have hj1 : (j 1).val < 128 := (j 1).isLt
  have e0 : ((((cfg0.win 7).blk t).view.emb j) (0 : Fin 2)).val = win0_7.index t (0 : Fin 2) * 512 + 1 * (j 0).val := rfl
  have e1 : ((((cfg0.win 7).blk t).view.emb j) (1 : Fin 2)).val = win0_7.index t (1 : Fin 2) * 128 + 1 * (j 1).val := rfl
  have hp : pt7 (((cfg0.win 7).blk t).view.emb j) = t := Fin.ext (by
    show 16 + ((((cfg0.win 7).blk t).view.emb j) (0 : Fin 2)).val / 512 = t.val
    rw [e0]; omega)
  have hr : rowIn7 (((cfg0.win 7).blk t).view.emb j) = j := by
    funext a; apply Fin.ext
    match a with
    | ⟨0, _⟩ => show ((((cfg0.win 7).blk t).view.emb j) (0 : Fin 2)).val % 512 = (j 0).val; rw [e0]; omega
    | ⟨1, _⟩ => show ((((cfg0.win 7).blk t).view.emb j) (1 : Fin 2)).val = (j 1).val; rw [e1]; omega
  show propAt m c t j = propAt m c (pt7 (((cfg0.win 7).blk t).view.emb j)) (rowIn7 (((cfg0.win 7).blk t).view.emb j))
  rw [hp, hr]

/-! ## The blocks cover the arrays -/

theorem mem_blk8 (t : Fin cfg0.N) (i : S4096x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v0_1).slice (win0_8.rect t)).set ↔ _
  rw [View.set_slice_whole, Rect.mem_set_unit]
  exact Iff.rfl

theorem mem_blk7 (t : Fin cfg0.N) (i : S16384x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v0_0).slice (win0_7.rect t)).set ↔ _
  rw [View.set_slice_whole, Rect.mem_set_unit]
  exact Iff.rfl

theorem cover8 (i : S4096x128.Idx) : ∃ t : Fin cfg0.N, (cfg0.win 8).flush t = true ∧ i ∈ ((cfg0.win 8).blk t).view.set := by
  have h47 : 47 < cfg0.N := by rw [show cfg0.N = 48 from N_0]; omega
  refine ⟨⟨47, h47⟩, (flush0_8 _).mpr rfl, ?_⟩
  rw [mem_blk8]
  obtain ⟨i0, i1⟩ := idx8 ⟨47, h47⟩
  have h0 : (i 0).val < 4096 := (i 0).isLt
  have h1 : (i 1).val < 128 := (i 1).isLt
  intro a
  match a with
  | ⟨0, _⟩ => show win0_8.index ⟨47, h47⟩ (0 : Fin 2) * 4096 ≤ (i 0).val ∧ (i 0).val < win0_8.index ⟨47, h47⟩ (0 : Fin 2) * 4096 + 4096; omega
  | ⟨1, _⟩ => show win0_8.index ⟨47, h47⟩ (1 : Fin 2) * 128 ≤ (i 1).val ∧ (i 1).val < win0_8.index ⟨47, h47⟩ (1 : Fin 2) * 128 + 128; omega

theorem cover7 (i : S16384x128.Idx) : ∃ t : Fin cfg0.N, (cfg0.win 7).flush t = true ∧ i ∈ ((cfg0.win 7).blk t).view.set := by
  have h0 : (i 0).val < 16384 := (i 0).isLt
  have h1 : (i 1).val < 128 := (i 1).isLt
  have ht : 16 ≤ (pt7 i).val := by show 16 ≤ 16 + (i (0 : Fin 2)).val / 512; omega
  refine ⟨pt7 i, (flush7 _).mpr ht, ?_⟩
  rw [mem_blk7]
  obtain ⟨i0, i1⟩ := idx7 (pt7 i) ht
  have hv : (pt7 i).val = 16 + (i 0).val / 512 := rfl
  intro a
  match a with
  | ⟨0, _⟩ => show win0_7.index (pt7 i) (0 : Fin 2) * 512 ≤ (i 0).val ∧ (i 0).val < win0_7.index (pt7 i) (0 : Fin 2) * 512 + 512; omega
  | ⟨1, _⟩ => show win0_7.index (pt7 i) (1 : Fin 2) * 128 ≤ (i 1).val ∧ (i 1).val < win0_7.index (pt7 i) (1 : Fin 2) * 128 + 128; omega

/-! ## The run, read -/

/-- Every weakly fair execution terminates with the first result array at the propagated messages, the second at the
    fused messages, and the argument arrays unchanged. -/
theorem run : θ_run defs (onTc (τ := τ) (main (F := F))) ⟨m, fun _ => 0, ρ⟩ fun r => ∀ c : Dev nD,
      r.2.mem ((c.tc : Thread nD τ).loc main_v0_0) = prop m c
      ∧ r.2.mem ((c.tc : Thread nD τ).loc main_v0_1) = fused m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      Cert.RelationalCover.arrAt_eq_of_cover (rd m c) 7 (prop m c) (wb7 m c) cover7 _ ((h c).1 7),
      Cert.RelationalCover.arrAt_eq_of_cover (rd m c) 8 (fused m c) (wb8 m c) cover8 _ ((h c).1 8),
      (Eq.mp (congrFun ((rd m c).ArrAt_in 1 rfl _) _) ((h c).1 1)).trans (V_main_arg0 m c),
      (Eq.mp (congrFun ((rd m c).ArrAt_in 2 rfl _) _) ((h c).1 2)).trans (V_main_arg1 m c),
      (Eq.mp (congrFun ((rd m c).ArrAt_in 6 rfl _) _) ((h c).1 6)).trans (V_main_arg2 m c),
      (Eq.mp (congrFun ((rd m c).ArrAt_in 0 rfl _) _) ((h c).1 0)).trans (V_main_arg3 m c),
      (Eq.mp (congrFun ((rd m c).ArrAt_in 3 rfl _) _) ((h c).1 3)).trans (V_main_arg4 m c),
      (Eq.mp (congrFun ((rd m c).ArrAt_in 4 rfl _) _) ((h c).1 4)).trans (V_main_arg5 m c),
      (Eq.mp (congrFun ((rd m c).ArrAt_in 5 rfl _) _) ((h c).1 5)).trans (V_main_arg6 m c)⟩) (run_main m ρ)

end Cert.KernelIdeal.Final

end
-- ==== Proof.LibRealEntries.lean ====
/-
  Extended reals that are real numbers, and two laws of sums over them.

  On the extended reals x - x = 0 holds for a real x and fails at the infinities, so an evaluation that splits a
  number into a high part and a low part spelt x - x agrees with the plain one only on reals.
  * `IsReal x`: x is (the image of) a real number; kept by 0, +, ·, finite sums and contractions; `IsReal.sub_self`.
  * `split3_sum`: the three-term split contraction hi(a)·hi(b) + hi(a)·lo(b) + lo(a)·hi(b), lo(x) = x - x, over any
    finite index type, is the plain contraction ∑ a·b when all entries are reals (a product with zero is zero on all
    extended reals, a sum of zeros is zero).
  * `sum_four_runs`: a sum over 4096 positions is zero plus its four consecutive runs of 1024, added in order, in any
    commutative additive monoid (`sum_range_four_runs`: the same over the naturals below 4096).
  * `top_word`, `real_of_abs_lt_top`: the f32 word 0x7F800000 denotes +inf, and max x (-x) < +inf (the comparison a
    finiteness precondition prints, as a one-bit word equal to 1) makes x a real.
-/
import Idealize.ShloMosaic.PureOps.Ideal

noncomputable section

open scoped BigOperators

namespace Cert.RealEntries

open Idealize.ShloMosaic

/-! ## Real entries -/

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- For a real x, x - x = 0 (on the extended reals this fails at the infinities). -/
theorem IsReal.sub_self {x : EReal} (hx : IsReal x) : x - x = 0 := by
  obtain ⟨a, rfl⟩ := hx
  rw [← EReal.coe_sub, _root_.sub_self, EReal.coe_zero]

theorem IsReal.sum {ι : Type*} (s : Finset ι) (f : ι → EReal) (h : ∀ k ∈ s, IsReal (f k)) : IsReal (∑ k ∈ s, f k) := by
  classical
  revert h
  refine Finset.induction_on s ?_ ?_
  · intro _; rw [Finset.sum_empty]; exact IsReal.zero
  · intro a s ha ih h
    rw [Finset.sum_insert ha]
    exact (h a (Finset.mem_insert_self a s)).add (ih fun k hk => h k (Finset.mem_insert_of_mem hk))

/-- A contraction of two families of reals is a real. -/
theorem IsReal.dot {K : Type*} [Fintype K] (a b : K → EReal) (ha : ∀ k, IsReal (a k)) (hb : ∀ k, IsReal (b k)) :
    IsReal (∑ k, a k * b k) :=
  IsReal.sum _ _ fun k _ => (ha k).mul (hb k)

/-! ## The split product collapses on reals -/

/-- hi(a)·hi(b) + hi(a)·lo(b) + lo(a)·hi(b) with lo(x) = x - x is the plain contraction when all entries are reals. -/
theorem split3_sum {K : Type*} [Fintype K] (a b : K → EReal) (ha : ∀ k, IsReal (a k)) (hb : ∀ k, IsReal (b k)) :
    (∑ k, a k * b k + ∑ k, a k * (b k - b k)) + ∑ k, (a k - a k) * b k = ∑ k, a k * b k := by
  have ea : ∀ k, a k - a k = 0 := fun k => (ha k).sub_self
  have eb : ∀ k, b k - b k = 0 := fun k => (hb k).sub_self
  simp only [ea, eb, mul_zero, zero_mul, Finset.sum_const_zero, add_zero]

/-! ## Four runs -/

/-- A sum over the first 4096 naturals, cut into its four runs of 1024. -/
theorem sum_range_four_runs {M : Type*} [AddCommMonoid M] (f : ℕ → M) :
    ∑ t ∈ Finset.range 4096, f t
      = ((∑ j ∈ Finset.range 1024, f j + ∑ j ∈ Finset.range 1024, f (1024 + j))
          + ∑ j ∈ Finset.range 1024, f (2048 + j)) + ∑ j ∈ Finset.range 1024, f (3072 + j) := by
  rw [show (4096 : ℕ) = 1024 + 1024 + 1024 + 1024 from rfl, Finset.sum_range_add, Finset.sum_range_add,
    Finset.sum_range_add]

/-- A sum over 4096 positions is zero plus its four consecutive runs of 1024 positions, added in order. -/
theorem sum_four_runs {M : Type*} [AddCommMonoid M] (f : Fin 4096 → M) :
    ∑ t, f t = ((((0 : M) + ∑ j : Fin 1024, f ⟨0 + j.val, by omega⟩) + ∑ j : Fin 1024, f ⟨1024 + j.val, by omega⟩)
        + ∑ j : Fin 1024, f ⟨2048 + j.val, by omega⟩) + ∑ j : Fin 1024, f ⟨3072 + j.val, by omega⟩ := by
  let g : ℕ → M := fun n => if h : n < 4096 then f ⟨n, h⟩ else 0
  have hg : ∀ (o : ℕ) (j : Fin 1024) (h : o + j.val < 4096), f ⟨o + j.val, h⟩ = g (o + j.val) := fun o j h => by
    show _ = dite _ _ _; rw [dif_pos h]
  have e0 : ∑ t, f t = ∑ t ∈ Finset.range 4096, g t := by
    rw [← Fin.sum_univ_eq_sum_range g 4096]
    refine Finset.sum_congr rfl fun t _ => ?_
    show _ = dite _ _ _; rw [dif_pos t.isLt]
  have er : ∀ (o : ℕ) (ho : o + 1024 ≤ 4096),
      ∑ j : Fin 1024, f ⟨o + j.val, by omega⟩ = ∑ j ∈ Finset.range 1024, g (o + j) := fun o ho => by
    rw [← Fin.sum_univ_eq_sum_range (fun n => g (o + n)) 1024]
    exact Finset.sum_congr rfl fun j _ => hg o j (by omega)
  rw [e0, sum_range_four_runs g, er 0 (by omega), er 1024 (by omega), er 2048 (by omega), er 3072 (by omega), zero_add]
  simp only [Nat.zero_add]

/-! ## The finiteness test -/

/-- The f32 word 0x7F800000 denotes +inf. -/
theorem top_word : Ideal.ofBits .f32 0x7F800000#32 = ⊤ := by simp [Ideal.ofBits, Ideal.ieee]

/-- |x| < +inf makes x a real. -/
theorem real_of_abs_lt_top (x : EReal) (h : Ideal.cmp .olt (max x (-x)) ⊤ = 1#1) : IsReal x := by
  induction x using EReal.rec
  · exfalso; revert h; simp [Ideal.cmp]
  · exact ⟨_, rfl⟩
  · exfalso; revert h; simp [Ideal.cmp]

end Cert.RealEntries

end
-- ==== Proof.FusedAlgebra.lean ====
/-
  The law that joins the kernel's arrangement of the fused messages to the reference's.

  For one hyperedge (one row a of the incidence matrix, one row e of the hyperedge embeddings) and one output
  column (f1, f2: that column of the top and bottom halves of the fusion weights), the kernel computes
      (a · P) · (Wp · f1) + e · (We · f2)
  and the reference
      (a · (P · Wp)) · f1 + (e · We) · f2 .
  Over the reals these agree by associativity of the matrix product, which rests on distributivity; over the
  extended reals distributivity fails at the infinities, so the law is stated for entries that are all real numbers.
-/
import Idealize.ShloMosaic.PureOps.Ideal
import Mathlib.Tactic.Ring
import proofs.«178155_g20358144983738_cont_8to1_1615_5_alg».proof.Proof.LibRealEntries

noncomputable section

open scoped BigOperators

namespace Cert.FusedAlgebra

open Cert.RealEntries (IsReal)

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a · P) · (W · f) = (a · (P · W)) · f over the reals. -/
theorem real_assoc {K D E : ℕ} (a : Fin K → ℝ) (p : Fin K → Fin D → ℝ) (w : Fin D → Fin E → ℝ) (f : Fin E → ℝ) :
    ∑ j, (∑ k, a k * p k j) * (∑ l, w j l * f l) = ∑ l, (∑ k, a k * ∑ j, p k j * w j l) * f l := by
  calc ∑ j, (∑ k, a k * p k j) * (∑ l, w j l * f l)
      = ∑ j, ∑ l, ∑ k, a k * p k j * w j l * f l := by
        refine Finset.sum_congr rfl fun j _ => ?_
        rw [Finset.mul_sum]
        refine Finset.sum_congr rfl fun l _ => ?_
        rw [Finset.sum_mul]
        refine Finset.sum_congr rfl fun k _ => ?_
        ring
    _ = ∑ l, ∑ j, ∑ k, a k * p k j * w j l * f l := Finset.sum_comm
    _ = ∑ l, ∑ k, ∑ j, a k * p k j * w j l * f l := Finset.sum_congr rfl fun l _ => Finset.sum_comm
    _ = ∑ l, (∑ k, a k * ∑ j, p k j * w j l) * f l := by
        refine Finset.sum_congr rfl fun l _ => ?_
        rw [Finset.sum_mul]
        refine Finset.sum_congr rfl fun k _ => ?_
        rw [Finset.mul_sum, Finset.sum_mul]
        refine Finset.sum_congr rfl fun j _ => ?_
        ring

/-- e · (W · f) = (e · W) · f over the reals. -/
theorem real_assoc₂ {D E : ℕ} (e : Fin D → ℝ) (w : Fin D → Fin E → ℝ) (f : Fin E → ℝ) :
    ∑ j, e j * (∑ l, w j l * f l) = ∑ l, (∑ j, e j * w j l) * f l := by
  calc ∑ j, e j * (∑ l, w j l * f l)
      = ∑ j, ∑ l, e j * w j l * f l := by
        refine Finset.sum_congr rfl fun j _ => ?_
        rw [Finset.mul_sum]
        refine Finset.sum_congr rfl fun l _ => ?_
        ring
    _ = ∑ l, ∑ j, e j * w j l * f l := Finset.sum_comm
    _ = ∑ l, (∑ j, e j * w j l) * f l := by
        refine Finset.sum_congr rfl fun l _ => ?_
        rw [Finset.sum_mul]

/-- The kernel's arrangement of one fused entry equals the reference's, when every entry involved is a real number. -/
theorem fused_entry {K D : ℕ} (a : Fin K → EReal) (p : Fin K → Fin D → EReal) (e : Fin D → EReal)
    (wp we : Fin D → Fin D → EReal) (f1 f2 : Fin D → EReal)
    (ha : ∀ k, IsReal (a k)) (hp : ∀ k j, IsReal (p k j)) (he : ∀ j, IsReal (e j))
    (hwp : ∀ j l, IsReal (wp j l)) (hwe : ∀ j l, IsReal (we j l)) (hf1 : ∀ l, IsReal (f1 l)) (hf2 : ∀ l, IsReal (f2 l)) :
    (∑ j, (∑ k, a k * p k j) * (∑ l, wp j l * f1 l)) + (∑ j, e j * (∑ l, we j l * f2 l))
      = (∑ l, (∑ k, a k * ∑ j, p k j * wp j l) * f1 l) + (∑ l, (∑ j, e j * we j l) * f2 l) := by
  choose a' ha using ha
  choose p' hp using hp
  choose e' he using he
  choose wp' hwp using hwp
  choose we' hwe using hwe
  choose f1' hf1 using hf1
  choose f2' hf2 using hf2
  simp only [ha, hp, he, hwp, hwe, hf1, hf2, ← EReal.coe_mul, ← coe_sum, ← EReal.coe_add]
  rw [real_assoc a' p' wp' f1', real_assoc₂ e' we' f2']

end Cert.FusedAlgebra

end
-- ==== Proof.Spec.lean ====
/-
  The hypergraph convolution layer as two functions of its seven argument arrays.

  x0 : node embeddings [16384, 128]        x1 : hyperedge embeddings [4096, 128]
  x2 : node-by-hyperedge incidence [16384, 4096]      x3 : hyperedge-by-node incidence [4096, 16384]
  x4, x5 : node and hyperedge weights [128, 128]      x6 : fusion weights [256, 128], top half rows 0..127, bottom 128..255

  fusedSpec: entry (r, q) of the fused hyperedge messages, as the reference arranges it,
      sum over l of (x3 · (x0 · x4)) (r, l) * x6 (l, q)  +  sum over l of (x1 · x5) (r, l) * x6 (128 + l, q) .
  kernelFused: the same entry as the kernel arranges it,
      sum over j of (x3 · x0) (r, j) * (x4 · top x6) (j, q)  +  sum over j of x1 (r, j) * (x5 · bottom x6) (j, q) .
  propSpec: entry (r, q) of the propagated messages from any fused array v: sum over k of x2 (r, k) * v (k, q).
  The two arrangements of the fused messages agree when every entry of the arrays is a real number.
-/
import Idealize.ShloMosaic.Lib.ValueIdx
import proofs.«178155_g20358144983738_cont_8to1_1615_5_alg».proof.Proof.FusedAlgebra

noncomputable section

open scoped BigOperators

namespace Cert.HyperConv

open Idealize.ShloMosaic Idealize.ShloMosaic.ValueIdx Cert.FusedAlgebra
open Cert.RealEntries (IsReal)

/-- Row l of the top half of the fusion weights. -/
abbrev lo (l : Fin 128) : Fin 256 := ⟨l.val, by omega⟩
/-- Row l of the bottom half of the fusion weights. -/
abbrev hi (l : Fin 128) : Fin 256 := ⟨128 + l.val, by omega⟩

/-- Every entry of an array of extended reals is a real number. -/
def AllReal {s : Shape} (x : s.Idx → EReal) : Prop := ∀ i, IsReal (x i)

variable (x0 : (⟨2, ![16384, 128]⟩ : Shape).Idx → EReal) (x1 : (⟨2, ![4096, 128]⟩ : Shape).Idx → EReal)
  (x2 : (⟨2, ![16384, 4096]⟩ : Shape).Idx → EReal) (x3 : (⟨2, ![4096, 16384]⟩ : Shape).Idx → EReal)
  (x4 x5 : (⟨2, ![128, 128]⟩ : Shape).Idx → EReal) (x6 : (⟨2, ![256, 128]⟩ : Shape).Idx → EReal)

/-- The fused hyperedge messages, the reference's arrangement. -/
def fusedSpec : (⟨2, ![4096, 128]⟩ : Shape).Idx → EReal := fun y =>
  (∑ l : Fin 128, (∑ k : Fin 16384, x3 (ix2 (y 0) k) * ∑ j : Fin 128, x0 (ix2 k j) * x4 (ix2 j l)) * x6 (ix2 (lo l) (y 1)))
    + ∑ l : Fin 128, (∑ j : Fin 128, x1 (ix2 (y 0) j) * x5 (ix2 j l)) * x6 (ix2 (hi l) (y 1))

/-- The fused hyperedge messages, the kernel's arrangement. -/
def kernelFused : (⟨2, ![4096, 128]⟩ : Shape).Idx → EReal := fun y =>
  (∑ j : Fin 128, (∑ k : Fin 16384, x3 (ix2 (y 0) k) * x0 (ix2 k j)) * ∑ l : Fin 128, x4 (ix2 j l) * x6 (ix2 (lo l) (y 1)))
    + ∑ j : Fin 128, x1 (ix2 (y 0) j) * ∑ l : Fin 128, x5 (ix2 j l) * x6 (ix2 (hi l) (y 1))

/-- The propagated messages from a fused array. -/
def propSpec (v : (⟨2, ![4096, 128]⟩ : Shape).Idx → EReal) : (⟨2, ![16384, 128]⟩ : Shape).Idx → EReal := fun y =>
  ∑ k : Fin 4096, x2 (ix2 (y 0) k) * v (ix2 k (y 1))

/-- The kernel's arrangement at (r, q). -/
theorem kernelFused_apply (r : Fin 4096) (q : Fin 128) :
    kernelFused x0 x1 x3 x4 x5 x6 (ix2 r q)
      = (∑ j : Fin 128, (∑ k : Fin 16384, x3 (ix2 r k) * x0 (ix2 k j)) * ∑ l : Fin 128, x4 (ix2 j l) * x6 (ix2 (lo l) q))
        + ∑ j : Fin 128, x1 (ix2 r j) * ∑ l : Fin 128, x5 (ix2 j l) * x6 (ix2 (hi l) q) := rfl

/-- The propagated messages at (r, q). -/
theorem propSpec_apply (v : (⟨2, ![4096, 128]⟩ : Shape).Idx → EReal) (r : Fin 16384) (q : Fin 128) :
    propSpec x2 v (ix2 r q) = ∑ k : Fin 4096, x2 (ix2 r k) * v (ix2 k q) := rfl

/-- On real entries the kernel's arrangement is the reference's. -/
theorem kernelFused_eq (h0 : AllReal x0) (h1 : AllReal x1) (h3 : AllReal x3) (h4 : AllReal x4) (h5 : AllReal x5)
    (h6 : AllReal x6) : kernelFused x0 x1 x3 x4 x5 x6 = fusedSpec x0 x1 x3 x4 x5 x6 :=
  funext fun y =>
    fused_entry (fun k => x3 (ix2 (y 0) k)) (fun k j => x0 (ix2 k j)) (fun j => x1 (ix2 (y 0) j))
      (fun j l => x4 (ix2 j l)) (fun j l => x5 (ix2 j l)) (fun l => x6 (ix2 (lo l) (y 1))) (fun l => x6 (ix2 (hi l) (y 1)))
      (fun _ => h3 _) (fun _ _ => h0 _) (fun _ => h1 _) (fun _ _ => h4 _) (fun _ _ => h5 _) (fun _ => h6 _) (fun _ => h6 _)

end Cert.HyperConv

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«178155_g20358144983738_cont_8to1_1615_5_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibPlainProduct.lean ====
/-
  The plain matrix product as one function, and its three spellings.

  `mm x w` is the textbook product of `x : [M, K]` and `w : [K, N]` over the extended reals: entry `(p, o)` is the sum
  over `k` of `x (p, k) * w (k, o)`. At the exact values it is what a kernel's `tpu.matmul` from the zero accumulator
  computes and what the host's `dot_general` computes, for any dimension record that contracts the left operand's
  second axis against the right operand's first. When the right operand is two matrices side by side, `[W₁ | W₂]`,
  the left columns of the product are the product with `W₁` and the right columns the product with `W₂`: each entry
  of the product reads one column of the right operand. General in the extents and the float formats.
-/
import Idealize.ShloMosaic.Lib.Pipeline.Value
import proofs.«178155_g20358144983738_cont_8to1_1615_5_alg».proof.Proof.LibMatmulPlain
import proofs.«178155_g20358144983738_cont_8to1_1615_5_alg».proof.Proof.LibHostDotPlain

noncomputable section

open scoped BigOperators

namespace Cert.PlainProduct

open Idealize.ShloMosaic Idealize.ShloMosaic.ValueIdx Cert.MatmulPlain Cert.HostDotPlain

variable {M K N : ℕ}

/-- The textbook product over the extended reals. -/
def mm (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

theorem mm_apply (x : (⟨2, ![M, K]⟩ : Shape).Idx → EReal) (w : (⟨2, ![K, N]⟩ : Shape).Idx → EReal) (p : Fin M) (o : Fin N) :
    mm x w (ix2 p o) = ∑ k : Fin K, x (ix2 p k) * w (ix2 k o) := rfl

/-- A kernel's matrix product from the zero accumulator is `mm`. -/
theorem matmul_zero_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant (F := Ideal) ⟨2, ![M, N]⟩ .f32 0x00000000#32) = mm l r := by
  funext j
  obtain ⟨p, o, rfl⟩ : ∃ (p : Fin M) (o : Fin N), j = ix2 p o := ⟨j 0, j 1, eq_ix2 j⟩
  exact matmul_plain_apply d hlc hrc hln hrn hlb hrb prec l r p o

/-- The host's matrix product is `mm`. -/
theorem dotGeneral_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) :
    FloatOps.dotGeneral d prec sched l r = mm l r := by
  funext j
  obtain ⟨p, o, rfl⟩ : ∃ (p : Fin M) (o : Fin N), j = ix2 p o := ⟨j 0, j 1, eq_ix2 j⟩
  exact dotGeneral_plain_apply d hlc hrc hln hrn hlb hrb prec sched l r p o

variable {N₁ N₂ : ℕ}

/-- The left columns of a product with `[W₁ | W₂]` are the product with `W₁`. -/
theorem mm_sideBySide_left (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₁) (o : Fin N) (ho : o.val = c.val) :
    mm x (concatenate ⟨2, ![K, N]⟩ (1 : Fin 2) [⟨⟨2, ![K, N₁]⟩, w₁⟩, ⟨⟨2, ![K, N₂]⟩, w₂⟩] h) (ix2 p o) = mm x w₁ (ix2 p c) := by
  rw [mm_apply, mm_apply]
  refine Finset.sum_congr rfl fun k _ => ?_
  congr 1
  exact concatenate_pair_apply_left (1 : Fin 2) w₁ w₂ h (ix2 k o) rfl (ix2 k c) (fun b => by
    match b with
    | ⟨0, _⟩ => rfl
    | ⟨1, _⟩ => exact ho.symm)

/-- The right columns of a product with `[W₁ | W₂]` are the product with `W₂`. -/
theorem mm_sideBySide_right (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₂) (o : Fin N) (ho : o.val = N₁ + c.val) :
    mm x (concatenate ⟨2, ![K, N]⟩ (1 : Fin 2) [⟨⟨2, ![K, N₁]⟩, w₁⟩, ⟨⟨2, ![K, N₂]⟩, w₂⟩] h) (ix2 p o) = mm x w₂ (ix2 p c) := by
  rw [mm_apply, mm_apply]
  refine Finset.sum_congr rfl fun k _ => ?_
  congr 1
  exact concatenate_pair_apply_right (1 : Fin 2) w₁ w₂ h (ix2 k o) rfl rfl (ix2 k c) (fun b hb => by
    match b with
    | ⟨0, _⟩ => rfl
    | ⟨1, _⟩ => exact absurd rfl hb)
    (by show c.val + N₁ = o.val; omega)

end Cert.PlainProduct

end
-- ==== Proof.LibRectReads.lean ====
/-
  A unit-stride rectangle of a matrix, read at coordinates.

  A rectangle of a matrix [M, N] that takes m consecutive rows from row o and all N columns places its local
  entry (i, j) at entry (o + i, j) of the matrix; one that takes all M rows and n consecutive columns from
  column o places its local entry (i, j) at (i, o + j). These are the two forms a body meets when it loads a
  block of rows of an operand, or loads and stores a block of columns of its output: a load through the
  rectangle (`View.ld X r`, the contents at the rectangle's indices) and the rectangle's embedding
  (`r.emb`) both go through `r.idx`, which is what is read here. General in the extents and the offset.
-/
import Idealize.ShloMosaic.Lib.ValueIdx
import Idealize.ShloMosaic.Lib.Pipeline.FrameBody

namespace Cert.RectReads

open Idealize.ShloMosaic Idealize.ShloMosaic.ValueIdx

/-- A block of m rows from row o, all columns: local (i, j) is the matrix's (o + i, j). -/
theorem idx_rowBlock {M N m : ℕ} (o : ℕ)
    (inb : ∀ a, (![o, 0] : Fin 2 → ℕ) a + (![m, N] : Fin 2 → ℕ) a ≤ (⟨2, ![M, N]⟩ : Shape).size a)
    (i : Fin m) (j : Fin N) (h : o + i.val < M) :
    (Rect.unit (s := ⟨2, ![M, N]⟩) ![o, 0] ![m, N] inb).idx (ix2 i j) = ix2 ⟨o + i.val, h⟩ j := by
  funext a
  apply Fin.ext
  match a with
  | ⟨0, _⟩ => show o + 1 * i.val = o + i.val; rw [Nat.one_mul]
  | ⟨1, _⟩ => show 0 + 1 * j.val = j.val; rw [Nat.one_mul, Nat.zero_add]

/-- A block of n columns from column o, all rows: local (i, j) is the matrix's (i, o + j). -/
theorem idx_colBlock {M N n : ℕ} (o : ℕ)
    (inb : ∀ a, (![0, o] : Fin 2 → ℕ) a + (![M, n] : Fin 2 → ℕ) a ≤ (⟨2, ![M, N]⟩ : Shape).size a)
    (i : Fin M) (j : Fin n) (h : o + j.val < N) :
    (Rect.unit (s := ⟨2, ![M, N]⟩) ![0, o] ![M, n] inb).idx (ix2 i j) = ix2 i ⟨o + j.val, h⟩ := by
  funext a
  apply Fin.ext
  match a with
  | ⟨0, _⟩ => show 0 + 1 * i.val = i.val; rw [Nat.one_mul, Nat.zero_add]
  | ⟨1, _⟩ => show o + 1 * j.val = o + j.val; rw [Nat.one_mul]

/-- A load of m rows from row o of a matrix, at (i, j): the matrix's entry (o + i, j). -/
theorem ld_rowBlock {α : Type} {M N m : ℕ} (X : (⟨2, ![M, N]⟩ : Shape).Idx → α) (o : ℕ)
    (inb : ∀ a, (![o, 0] : Fin 2 → ℕ) a + (![m, N] : Fin 2 → ℕ) a ≤ (⟨2, ![M, N]⟩ : Shape).size a)
    (i : Fin m) (j : Fin N) (h : o + i.val < M) :
    X ((Rect.unit (s := ⟨2, ![M, N]⟩) ![o, 0] ![m, N] inb).idx (ix2 i j)) = X (ix2 ⟨o + i.val, h⟩ j) :=
  congrArg X (idx_rowBlock o inb i j h)

/-- A load of n columns from column o of a matrix, at (i, j): the matrix's entry (i, o + j). -/
theorem ld_colBlock {α : Type} {M N n : ℕ} (X : (⟨2, ![M, N]⟩ : Shape).Idx → α) (o : ℕ)
    (inb : ∀ a, (![0, o] : Fin 2 → ℕ) a + (![M, n] : Fin 2 → ℕ) a ≤ (⟨2, ![M, N]⟩ : Shape).size a)
    (i : Fin M) (j : Fin n) (h : o + j.val < N) :
    X ((Rect.unit (s := ⟨2, ![M, N]⟩) ![0, o] ![M, n] inb).idx (ix2 i j)) = X (ix2 i ⟨o + j.val, h⟩) :=
  congrArg X (idx_colBlock o inb i j h)

end Cert.RectReads
-- ==== Proof.KIReads.lean ====
/-
  The kernel's two result arrays are the specification's functions of the argument arrays.

  At the exact values each matrix product from the zero accumulator is the textbook product, so the 256 rows a
  first-phase point computes are, entry by entry, the kernel's arrangement of the fused messages over that point's
  blocks; a block's entry is an entry of the argument array (block index times block size plus the coordinate inside
  the block), and the halves of the fusion weights are its rows 0..127 and 128..255. Likewise the 512 rows a
  second-phase point computes are its incidence rows times the fused messages.
-/
import proofs.«178155_g20358144983738_cont_8to1_1615_5_alg».proof.Proof.KIValue
import proofs.«178155_g20358144983738_cont_8to1_1615_5_alg».proof.Proof.Spec
import proofs.«178155_g20358144983738_cont_8to1_1615_5_alg».proof.Proof.LibPlainProduct
import proofs.«178155_g20358144983738_cont_8to1_1615_5_alg».proof.Proof.LibRectReads

set_option maxRecDepth 16384

noncomputable section

open scoped BigOperators

namespace Cert.KernelIdeal.Reads

open Cert.KernelIdeal Cert.KernelIdeal.Gen Cert.KernelIdeal.Body Cert.KernelIdeal.Data Cert.KernelIdeal.Final
open Idealize.ShloMosaic Idealize.ShloMosaic.TcCoe Idealize.ShloMosaic.ValueIdx Idealize.SL.Sem
open Cert.PlainProduct Cert.HyperConv

/-- A kernel's matrix product from the zero accumulator is the textbook product. -/
theorem matmul_mm {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    matmul d none l r (constant (F := Ideal) ⟨2, ![M, N]⟩ .f32 0x00000000#32) = mm l r :=
  matmul_zero_eq_mm d hlc hrc hln hrn hlb hrb none l r

/-- The rows a first-phase point computes, entry by entry, over its blocks. -/
theorem fusedRows_apply (x0 : Vec Ideal S256x16384 .f32) (x1 : Vec Ideal S16384x128 .f32) (x2 : Vec Ideal S256x128 .f32)
    (x3 x4 : Vec Ideal S128x128 .f32) (x5 : Vec Ideal S256x128 .f32) (p : Fin 256) (q : Fin 128) :
    fusedRows (F := Ideal) x0 x1 x2 x3 x4 x5 (ix2 p q)
      = (∑ j : Fin 128, (∑ k : Fin 16384, x0 (ix2 p k) * x1 (ix2 k j)) * ∑ l : Fin 128, x3 (ix2 j l) * x5 (ix2 (lo l) q))
        + ∑ j : Fin 128, x2 (ix2 p j) * ∑ l : Fin 128, x4 (ix2 j l) * x5 (ix2 (hi l) q) := by
  unfold fusedRows k0_pay1
  dsimp only
  simp only [matmul_mm dot_S256x16384_S16384x128_S256x128_1_0_0_1_n_n rfl rfl rfl rfl rfl rfl,
    matmul_mm dot_S128x128_S128x128_S128x128_1_0_0_1_n_n rfl rfl rfl rfl rfl rfl,
    matmul_mm dot_S256x128_S128x128_S256x128_1_0_0_1_n_n rfl rfl rfl rfl rfl rfl]
  show mm (mm x0 x1) (mm x3 _) (ix2 p q) + mm x2 (mm x4 _) (ix2 p q) = _
  simp only [mm_apply]
  refine congrArg₂ (· + ·) ?_ ?_
  · refine Finset.sum_congr rfl fun j _ => ?_
    refine congrArg (fun z => (∑ k : Fin 16384, x0 (ix2 p k) * x1 (ix2 k j)) * z) ?_
    refine Finset.sum_congr rfl fun l _ => ?_
    refine congrArg (fun z => x3 (ix2 j l) * z) ?_
    refine (Cert.RectReads.ld_rowBlock (M := 256) (N := 128) (m := 128) x5 0 inb_S256x128_S128x128_0_0 l q (by omega)).trans ?_
    exact congrArg x5 (funext fun a => match a with | ⟨0, _⟩ => Fin.ext (Nat.zero_add _) | ⟨1, _⟩ => rfl)
  · refine Finset.sum_congr rfl fun j _ => ?_
    refine congrArg (fun z => x2 (ix2 p j) * z) ?_
    refine Finset.sum_congr rfl fun l _ => ?_
    refine congrArg (fun z => x4 (ix2 j l) * z) ?_
    exact Cert.RectReads.ld_rowBlock (M := 256) (N := 128) (m := 128) x5 128 inb_S256x128_S128x128_128_0 l q (by omega)

/-- The rows a second-phase point computes, entry by entry. -/
theorem pay2_apply (x6 : Vec Ideal S512x4096 .f32) (v : Vec Ideal S4096x128 .f32) (p : Fin 512) (q : Fin 128) :
    k0_pay2 (F := Ideal) x6 v (ix2 p q) = ∑ k : Fin 4096, x6 (ix2 p k) * v (ix2 k q) := by
  unfold k0_pay2
  rw [shapeCast_self, matmul_mm dot_S512x4096_S4096x128_S512x128_1_0_0_1_n_n rfl rfl rfl rfl rfl rfl]
  rfl

/-! ## The windows' blocks as entries of the argument arrays -/

variable (m : (ℓ : Loc nD τ sig) → Buf (Elt Ideal) ℓ)

/-- The block indices of the input windows: the two row-blocked first-phase inputs move with the point, the
    second-phase input with the point less 16, the others stay at block 0. -/
theorem idxA : ∀ t : Fin cfg0.N, t.val < 16 → win0_0.index t (0 : Fin 2) = t.val ∧ win0_0.index t (1 : Fin 2) = 0
    ∧ win0_2.index t (0 : Fin 2) = t.val ∧ win0_2.index t (1 : Fin 2) = 0 :=
  (by decide +kernel : ∀ t : Fin grid0.N, t.val < 16 → win0_0.index t (0 : Fin 2) = t.val ∧ win0_0.index t (1 : Fin 2) = 0
    ∧ win0_2.index t (0 : Fin 2) = t.val ∧ win0_2.index t (1 : Fin 2) = 0)
theorem idxC : ∀ t : Fin cfg0.N, win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)
theorem idxB : ∀ t : Fin cfg0.N, 16 ≤ t.val → win0_6.index t (0 : Fin 2) = t.val - 16 ∧ win0_6.index t (1 : Fin 2) = 0 :=
  (by decide +kernel : ∀ t : Fin grid0.N, 16 ≤ t.val → win0_6.index t (0 : Fin 2) = t.val - 16 ∧ win0_6.index t (1 : Fin 2) = 0)

/-- Entry (p, k) of a first-phase point's incidence block is entry (256 t + p, k) of the hyperedge-by-node incidence. -/
theorem blk0_at (c : Dev nD) (t : Fin cfg0.N) (ht : t.val < 16) (p : Fin 256) (k : Fin 16384) (r : Fin 4096)
    (hr : r.val = 256 * t.val + p.val) :
    iblk m c 0 t (ix2 p k) = m ((c.tc : Thread nD τ).loc main_arg3) (ix2 r k) := by
  show V m c main_arg3 (((cfg0.win 0).blk t).view.emb (ix2 p k)) = _
  obtain ⟨e0, e1, -, -⟩ := idxA t ht
  refine congrArg (m ((c.tc : Thread nD τ).loc main_arg3)) (funext fun a => Fin.ext ?_)
  match a with
  | ⟨0, _⟩ => show win0_0.index t (0 : Fin 2) * 256 + 1 * p.val = r.val; omega
  | ⟨1, _⟩ => show win0_0.index t (1 : Fin 2) * 16384 + 1 * k.val = k.val; omega

/-- Entry (p, j) of a first-phase point's block of hyperedge embeddings is entry (256 t + p, j). -/
theorem blk2_at (c : Dev nD) (t : Fin cfg0.N) (ht : t.val < 16) (p : Fin 256) (j : Fin 128) (r : Fin 4096)
    (hr : r.val = 256 * t.val + p.val) :
    iblk m c 2 t (ix2 p j) = m ((c.tc : Thread nD τ).loc main_arg1) (ix2 r j) := by
  show V m c main_arg1 (((cfg0.win 2).blk t).view.emb (ix2 p j)) = _
  obtain ⟨-, -, e0, e1⟩ := idxA t ht
  refine congrArg (m ((c.tc : Thread nD τ).loc main_arg1)) (funext fun a => Fin.ext ?_)
  match a with
  | ⟨0, _⟩ => show win0_2.index t (0 : Fin 2) * 256 + 1 * p.val = r.val; omega
  | ⟨1, _⟩ => show win0_2.index t (1 : Fin 2) * 128 + 1 * j.val = j.val; omega

/-- The whole-array windows' blocks are the arrays. -/
theorem blk1_at (c : Dev nD) (t : Fin cfg0.N) (k : Fin 16384) (j : Fin 128) :
    iblk m c 1 t (ix2 k j) = m ((c.tc : Thread nD τ).loc main_arg0) (ix2 k j) := by
  show V m c main_arg0 (((cfg0.win 1).blk t).view.emb (ix2 k j)) = _
  obtain ⟨e0, e1, -⟩ := idxC t
  refine congrArg (m ((c.tc : Thread nD τ).loc main_arg0)) (funext fun a => Fin.ext ?_)
  match a with
  | ⟨0, _⟩ => show win0_1.index t (0 : Fin 2) * 16384 + 1 * k.val = k.val; omega
  | ⟨1, _⟩ => show win0_1.index t (1 : Fin 2) * 128 + 1 * j.val = j.val; omega
theorem blk3_at (c : Dev nD) (t : Fin cfg0.N) (j l : Fin 128) :
    iblk m c 3 t (ix2 j l) = m ((c.tc : Thread nD τ).loc main_arg4) (ix2 j l) := by
  show V m c main_arg4 (((cfg0.win 3).blk t).view.emb (ix2 j l)) = _
  obtain ⟨-, -, e0, e1, -⟩ := idxC t
  refine congrArg (m ((c.tc : Thread nD τ).loc main_arg4)) (funext fun a => Fin.ext ?_)
  match a with
  | ⟨0, _⟩ => show win0_3.index t (0 : Fin 2) * 128 + 1 * j.val = j.val; omega
  | ⟨1, _⟩ => show win0_3.index t (1 : Fin 2) * 128 + 1 * l.val = l.val; omega
theorem blk4_at (c : Dev nD) (t : Fin cfg0.N) (j l : Fin 128) :
    iblk m c 4 t (ix2 j l) = m ((c.tc : Thread nD τ).loc main_arg5) (ix2 j l) := by
  show V m c main_arg5 (((cfg0.win 4).blk t).view.emb (ix2 j l)) = _
  obtain ⟨-, -, -, -, e0, e1, -⟩ := idxC t
  refine congrArg (m ((c.tc : Thread nD τ).loc main_arg5)) (funext fun a => Fin.ext ?_)
  match a with
  | ⟨0, _⟩ => show win0_4.index t (0 : Fin 2) * 128 + 1 * j.val = j.val; omega
  | ⟨1, _⟩ => show win0_4.index t (1 : Fin 2) * 128 + 1 * l.val = l.val; omega
theorem blk5_at (c : Dev nD) (t : Fin cfg0.N) (n : Fin 256) (q : Fin 128) :
    iblk m c 5 t (ix2 n q) = m ((c.tc : Thread nD τ).loc main_arg6) (ix2 n q) := by
  show V m c main_arg6 (((cfg0.win 5).blk t).view.emb (ix2 n q)) = _
  obtain ⟨-, -, -, -, -, -, e0, e1⟩ := idxC t
  refine congrArg (m ((c.tc : Thread nD τ).loc main_arg6)) (funext fun a => Fin.ext ?_)
  match a with
  | ⟨0, _⟩ => show win0_5.index t (0 : Fin 2) * 256 + 1 * n.val = n.val; omega
  | ⟨1, _⟩ => show win0_5.index t (1 : Fin 2) * 128 + 1 * q.val = q.val; omega

/-- Entry (p, k) of a second-phase point's incidence block is entry (512 (t - 16) + p, k) of the node-by-hyperedge
    incidence. -/
theorem blk6_at (c : Dev nD) (t : Fin cfg0.N) (ht : 16 ≤ t.val) (p : Fin 512) (k : Fin 4096) (r : Fin 16384)
    (hr : r.val = 512 * (t.val - 16) + p.val) :
    iblk m c 6 t (ix2 p k) = m ((c.tc : Thread nD τ).loc main_arg2) (ix2 r k) := by
  show V m c main_arg2 (((cfg0.win 6).blk t).view.emb (ix2 p k)) = _
  obtain ⟨e0, e1⟩ := idxB t ht
  refine congrArg (m ((c.tc : Thread nD τ).loc main_arg2)) (funext fun a => Fin.ext ?_)
  match a with
  | ⟨0, _⟩ => show win0_6.index t (0 : Fin 2) * 512 + 1 * p.val = r.val; omega
  | ⟨1, _⟩ => show win0_6.index t (1 : Fin 2) * 4096 + 1 * k.val = k.val; omega

/-! ## The two result arrays -/

/-- The fused messages the kernel leaves are the kernel's arrangement over the argument arrays. -/
theorem fused_eq (c : Dev nD) :
    fused m c = kernelFused (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg5)) (m ((c.tc : Thread nD τ).loc main_arg6)) := by
  funext y
  obtain ⟨r, q, rfl⟩ : ∃ (r : Fin 4096) (q : Fin 128), y = ix2 r q := ⟨y 0, y 1, eq_ix2 y⟩
  have hr : r.val < 4096 := r.isLt
  have ht : (ptOf (ix2 r q)).val < 16 := by show r.val / 256 < 16; omega
  have hrow : r.val = 256 * (ptOf (ix2 r q)).val + r.val % 256 := by show r.val = 256 * (r.val / 256) + r.val % 256; omega
  show fusedRows (iblk m c 0 (ptOf (ix2 r q))) (iblk m c 1 (ptOf (ix2 r q))) (iblk m c 2 (ptOf (ix2 r q)))
      (iblk m c 3 (ptOf (ix2 r q))) (iblk m c 4 (ptOf (ix2 r q))) (iblk m c 5 (ptOf (ix2 r q)))
      (ix2 (⟨r.val % 256, Nat.mod_lt _ (by decide)⟩ : Fin 256) q) = _
  rw [fusedRows_apply, kernelFused_apply]
  simp only [blk0_at m c _ ht (⟨r.val % 256, Nat.mod_lt _ (by decide)⟩ : Fin 256) _ r hrow, blk1_at,
    blk2_at m c _ ht (⟨r.val % 256, Nat.mod_lt _ (by decide)⟩ : Fin 256) _ r hrow, blk3_at, blk4_at, blk5_at]

/-- The propagated messages the kernel leaves are the incidence matrix times the fused messages it leaves. -/
theorem prop_eq (c : Dev nD) :
    prop m c = propSpec (m ((c.tc : Thread nD τ).loc main_arg2)) (fused m c) := by
  funext y
  obtain ⟨r, q, rfl⟩ : ∃ (r : Fin 16384) (q : Fin 128), y = ix2 r q := ⟨y 0, y 1, eq_ix2 y⟩
  have hr : r.val < 16384 := r.isLt
  have ht : 16 ≤ (pt7 (ix2 r q)).val := by show 16 ≤ 16 + r.val / 512; omega
  have hrow : r.val = 512 * ((pt7 (ix2 r q)).val - 16) + r.val % 512 := by
    show r.val = 512 * (16 + r.val / 512 - 16) + r.val % 512; omega
  show k0_pay2 (iblk m c 6 (pt7 (ix2 r q))) (fused m c) (ix2 (⟨r.val % 512, Nat.mod_lt _ (by decide)⟩ : Fin 512) q) = _
  rw [pay2_apply, propSpec_apply]
  simp only [blk6_at m c _ ht (⟨r.val % 512, Nat.mod_lt _ (by decide)⟩ : Fin 512) _ r hrow]

end Cert.KernelIdeal.Reads

end
-- ==== Proof.LibBesideTwo.lean ====
/-
  TWO MATRICES SET SIDE BY SIDE, read at an index. `[R, a]` and `[R, b]` concatenated along the column axis into
  `[R, n]`, with `a + b = n` given by an equation (pass `rfl` for a literal `n`): column `j` of the first piece is
  column `j` of the result, column `j` of the second is column `a + j`. With it, a contraction over the `n` columns
  of the concatenation splits into the contraction over the first piece's columns plus that over the second's
  (`sum_two_runs`): how `concat([x, y], axis = 1) @ W` meets `x @ W[:a] + y @ W[a:]`. General in the extents and the
  element type. (Library imports only.)
-/
import Idealize.ShloMosaic.Lib.Pipeline.Value
import Idealize.ShloMosaic.Lib.ValueIdx

noncomputable section

namespace Cert.BesideTwo

open Idealize.ShloMosaic Idealize.ShloMosaic.ValueIdx

variable {α : Type}

/-- Column `j` of the first piece is column `j` of the concatenation. -/
theorem cat2_left {R a b n : ℕ} (hn : a + b = n) (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ 1) (r : Fin R) (j : Fin a) :
    concatenate ⟨2, ![R, n]⟩ 1 [⟨⟨2, ![R, a]⟩, x⟩, ⟨⟨2, ![R, b]⟩, y⟩] h (ix2 r (⟨j.val, by omega⟩ : Fin n)) = x (ix2 r j) :=
  concatenate_pair_apply_left (t := ⟨2, ![R, n]⟩) (s₁ := ⟨2, ![R, a]⟩) (s₂ := ⟨2, ![R, b]⟩) (1 : Fin 2) x y h
    (ix2 r (⟨j.val, by omega⟩ : Fin n)) rfl (ix2 r j) fun c => match c with | ⟨0, _⟩ => rfl | ⟨1, _⟩ => rfl

/-- Column `j` of the second piece is column `a + j` of the concatenation. -/
theorem cat2_right {R a b n : ℕ} (hn : a + b = n) (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ 1) (r : Fin R) (j : Fin b) :
    concatenate ⟨2, ![R, n]⟩ 1 [⟨⟨2, ![R, a]⟩, x⟩, ⟨⟨2, ![R, b]⟩, y⟩] h (ix2 r (⟨a + j.val, by omega⟩ : Fin n)) = y (ix2 r j) :=
  concatenate_pair_apply_right (t := ⟨2, ![R, n]⟩) (s₁ := ⟨2, ![R, a]⟩) (s₂ := ⟨2, ![R, b]⟩) (1 : Fin 2) x y h
    (ix2 r (⟨a + j.val, by omega⟩ : Fin n)) rfl rfl (ix2 r j)
    (fun c hc => match c, hc with | ⟨0, _⟩, _ => rfl | ⟨1, _⟩, hc => absurd rfl hc)
    (by show j.val + a = a + j.val; omega)

/-- A sum over `Fin n`, `n = a + b`, is the sum over the first `a` indices plus the sum over the last `b`. -/
theorem sum_two_runs {M : Type} [AddCommMonoid M] {a b n : ℕ} (hn : a + b = n) (f : Fin n → M) :
    ∑ k : Fin n, f k = (∑ k : Fin a, f ⟨k.val, by omega⟩) + ∑ k : Fin b, f ⟨a + k.val, by omega⟩ := by
  subst hn
  exact Fin.sum_univ_add f

end Cert.BesideTwo

end
-- ==== Proof.RefReads.lean ====
/-
  The reference computes the specification.

  Its fused messages are the product of two matrices set side by side, [x3 · (x0 · x4) | x1 · x5], with the fusion
  weights: the contraction over the 256 joined columns splits into the first 128 (against the top half of the
  weights) and the last 128 (against the bottom half). Its propagated messages are the incidence matrix times the
  fused messages.
-/
import proofs.«178155_g20358144983738_cont_8to1_1615_5_alg».proof.Proof.Gen.ReferenceIdeal.Read
import proofs.«178155_g20358144983738_cont_8to1_1615_5_alg».proof.Proof.Spec
import proofs.«178155_g20358144983738_cont_8to1_1615_5_alg».proof.Proof.LibBesideTwo

noncomputable section

open scoped BigOperators

namespace Cert.ReferenceIdeal.RefValue

open Cert.ReferenceIdeal Cert.ReferenceIdeal.Gen Cert.ReferenceIdeal.Read
open Idealize.ShloMosaic Idealize.ShloMosaic.ValueIdx Cert.HyperConv

variable (x0 : (⟨S16384x128, .f32⟩ : BufTy).Contents (Elt Ideal)) (x1 : (⟨S4096x128, .f32⟩ : BufTy).Contents (Elt Ideal))
  (x2 : (⟨S16384x4096, .f32⟩ : BufTy).Contents (Elt Ideal)) (x3 : (⟨S4096x16384, .f32⟩ : BufTy).Contents (Elt Ideal))
  (x4 x5 : (⟨S128x128, .f32⟩ : BufTy).Contents (Elt Ideal)) (x6 : (⟨S256x128, .f32⟩ : BufTy).Contents (Elt Ideal))

/-- x0 · x4 at (k, l). -/
theorem v0_at (k : Fin 16384) (l : Fin 128) :
    val_main_v0 (F := Ideal) x0 x4 (ix2 k l) = ∑ j : Fin 128, x0 (ix2 k j) * x4 (ix2 j l) := by
  rw [val_main_v0_apply]
  refine Finset.sum_congr rfl fun j _ => ?_
  have e1 : lidx_main_v0 (ix2 k l) j = ix2 k j := funext fun a => match a with | ⟨0, _⟩ => rfl | ⟨1, _⟩ => rfl
  have e2 : ridx_main_v0 (ix2 k l) j = ix2 j l := funext fun a => match a with | ⟨0, _⟩ => rfl | ⟨1, _⟩ => rfl
  rw [e1, e2]

/-- x3 · (x0 · x4) at (r, l). -/
theorem v1_at (r : Fin 4096) (l : Fin 128) :
    val_main_v1 (F := Ideal) x0 x3 x4 (ix2 r l) = ∑ k : Fin 16384, x3 (ix2 r k) * ∑ j : Fin 128, x0 (ix2 k j) * x4 (ix2 j l) := by
  rw [val_main_v1_apply]
  refine Finset.sum_congr rfl fun k _ => ?_
  have e1 : lidx_main_v1 (ix2 r l) k = ix2 r k := funext fun a => match a with | ⟨0, _⟩ => rfl | ⟨1, _⟩ => rfl
  have e2 : ridx_main_v1 (ix2 r l) k = ix2 k l := funext fun a => match a with | ⟨0, _⟩ => rfl | ⟨1, _⟩ => rfl
  rw [e1, e2, v0_at]

/-- x1 · x5 at (r, l). -/
theorem v2_at (r : Fin 4096) (l : Fin 128) :
    val_main_v2 (F := Ideal) x1 x5 (ix2 r l) = ∑ j : Fin 128, x1 (ix2 r j) * x5 (ix2 j l) := by
  rw [val_main_v2_apply]
  refine Finset.sum_congr rfl fun j _ => ?_
  have e1 : lidx_main_v2 (ix2 r l) j = ix2 r j := funext fun a => match a with | ⟨0, _⟩ => rfl | ⟨1, _⟩ => rfl
  have e2 : ridx_main_v2 (ix2 r l) j = ix2 j l := funext fun a => match a with | ⟨0, _⟩ => rfl | ⟨1, _⟩ => rfl
  rw [e1, e2]

/-- The reference's fused messages are the specification's. -/
theorem v4_eq : val_main_v4 (F := Ideal) x0 x1 x3 x4 x5 x6 = fusedSpec x0 x1 x3 x4 x5 x6 := by
  funext y
  obtain ⟨r, q, rfl⟩ : ∃ (r : Fin 4096) (q : Fin 128), y = ix2 r q := ⟨y 0, y 1, eq_ix2 y⟩
  rw [val_main_v4_apply, Cert.BesideTwo.sum_two_runs (a := 128) (b := 128) (n := 256) rfl]
  show _ = (∑ l : Fin 128, (∑ k : Fin 16384, x3 (ix2 r k) * ∑ j : Fin 128, x0 (ix2 k j) * x4 (ix2 j l)) * x6 (ix2 (lo l) q))
    + ∑ l : Fin 128, (∑ j : Fin 128, x1 (ix2 r j) * x5 (ix2 j l)) * x6 (ix2 (hi l) q)
  refine congrArg₂ (· + ·) ?_ ?_
  · refine Finset.sum_congr rfl fun l _ => ?_
    have e1 : lidx_main_v4 (ix2 r q) (⟨l.val, by omega⟩ : Fin 256) = ix2 r (⟨l.val, by omega⟩ : Fin 256) :=
      funext fun a => match a with | ⟨0, _⟩ => rfl | ⟨1, _⟩ => rfl
    have e2 : ridx_main_v4 (ix2 r q) (⟨l.val, by omega⟩ : Fin 256) = ix2 (lo l) q :=
      funext fun a => match a with | ⟨0, _⟩ => rfl | ⟨1, _⟩ => rfl
    rw [e1, e2]
    unfold val_main_v3
    rw [Cert.BesideTwo.cat2_left (a := 128) (b := 128) (n := 256) rfl _ _ _ r l, v1_at]
  · refine Finset.sum_congr rfl fun l _ => ?_
    have e1 : lidx_main_v4 (ix2 r q) (⟨128 + l.val, by omega⟩ : Fin 256) = ix2 r (⟨128 + l.val, by omega⟩ : Fin 256) :=
      funext fun a => match a with | ⟨0, _⟩ => rfl | ⟨1, _⟩ => rfl
    have e2 : ridx_main_v4 (ix2 r q) (⟨128 + l.val, by omega⟩ : Fin 256) = ix2 (hi l) q :=
      funext fun a => match a with | ⟨0, _⟩ => rfl | ⟨1, _⟩ => rfl
    rw [e1, e2]
    unfold val_main_v3
    rw [Cert.BesideTwo.cat2_right (a := 128) (b := 128) (n := 256) rfl _ _ _ r l, v2_at]

/-- The reference's propagated messages are the specification's, from its own fused messages. -/
theorem v5_eq : val_main_v5 (F := Ideal) x0 x1 x2 x3 x4 x5 x6 = propSpec x2 (val_main_v4 (F := Ideal) x0 x1 x3 x4 x5 x6) := by
  funext y
  obtain ⟨r, q, rfl⟩ : ∃ (r : Fin 16384) (q : Fin 128), y = ix2 r q := ⟨y 0, y 1, eq_ix2 y⟩
  rw [val_main_v5_apply]
  show _ = ∑ k : Fin 4096, x2 (ix2 r k) * val_main_v4 (F := Ideal) x0 x1 x3 x4 x5 x6 (ix2 k q)
  refine Finset.sum_congr rfl fun k _ => ?_
  have e1 : lidx_main_v5 (ix2 r q) k = ix2 r k := funext fun a => match a with | ⟨0, _⟩ => rfl | ⟨1, _⟩ => rfl
  have e2 : ridx_main_v5 (ix2 r q) k = ix2 k q := funext fun a => match a with | ⟨0, _⟩ => rfl | ⟨1, _⟩ => rfl
  rw [e1, e2]

end Cert.ReferenceIdeal.RefValue

end
-- ==== Proof.PreReal.lean ====
/-
  The precondition makes every entry of every argument array a real number.

  The printed predicate is the conjunction of seven tests, one per array: every entry's absolute value is below
  plus infinity. Read at the exact values, |x| < +inf rules out both infinities, so x is a real number.
-/
import proofs.«178155_g20358144983738_cont_8to1_1615_5_alg».proof.Pre_finite_inputs
import proofs.«178155_g20358144983738_cont_8to1_1615_5_alg».proof.Proof.Spec
import proofs.«178155_g20358144983738_cont_8to1_1615_5_alg».proof.Proof.LibRealEntries
import Idealize.ShloMosaic.Lib.ReduceAll
import Idealize.ShloMosaic.Lib.Affine
import Idealize.ShloMosaic.Lib.ValueIdx

noncomputable section

namespace Cert.PreReal

open Idealize.ShloMosaic Cert.Pre_finite_inputs Cert.Pre_finite_inputs.Facts Cert.RealEntries Cert.HyperConv

variable [Cert.Pre_finite_inputs.Facts]

/-- The scalar shape has one index. -/
instance : Subsingleton S_.Idx := ⟨fun a b => funext fun d => d.elim0⟩

/-- One array's test, all ones, makes every entry real. -/
theorem real_of_test {s : Shape} {axes : List (Fin s.rank)} (hb : S_.BroadcastsInDim s (![] : Fin 0 → Fin s.rank))
    (hr : s.ReducesTo axes S_)
    (x : FVec Ideal s .f32)
    (h : Host.reduce IntOp.andi (cmpf .olt (Host.absf x) (broadcastInDim s ![] hb (constant (F := Ideal) S_ .f32 0x7F800000#32)))
      (constantI S_ 1 1#1) hr h_S_ ValueIdx.ix0 = 1#1) : AllReal x := by
  intro i
  have hi := Host.reduce_andi_all _ _ hr h_S_ ValueIdx.ix0 h i
  have hi' : Ideal.cmp .olt (max (x i) (-(x i))) (Ideal.ofBits .f32 0x7F800000#32) = 1#1 := hi
  rw [top_word] at hi'
  exact real_of_abs_lt_top (x i) hi'

/-- The precondition, all ones, makes every entry of the seven arrays real. -/
theorem all_real (a0 : FVec Ideal S16384x128 .f32) (a1 : FVec Ideal S4096x128 .f32) (a2 : FVec Ideal S16384x4096 .f32)
    (a3 : FVec Ideal S4096x16384 .f32) (a4 a5 : FVec Ideal S128x128 .f32) (a6 : FVec Ideal S256x128 .f32)
    (h : fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h ValueIdx.ix0
  dsimp only [fn, fn_part1, andi] at h0
  obtain ⟨h0, t6⟩ := IntOp.andi_eq_one.mp h0
  obtain ⟨h0, t5⟩ := IntOp.andi_eq_one.mp h0
  obtain ⟨h0, t4⟩ := IntOp.andi_eq_one.mp h0
  obtain ⟨h0, t3⟩ := IntOp.andi_eq_one.mp h0
  obtain ⟨h0, t2⟩ := IntOp.andi_eq_one.mp h0
  obtain ⟨t0, t1⟩ := IntOp.andi_eq_one.mp h0
  exact ⟨real_of_test _ _ a0 t0, real_of_test _ _ a1 t1, real_of_test _ _ a2 t2, real_of_test _ _ a3 t3,
    real_of_test _ _ a4 t4, real_of_test _ _ a5 t5, real_of_test _ _ a6 t6⟩

end Cert.PreReal

end
-- ==== Proof.lean ====
/-
  A hypergraph convolution layer: hyperedges gather messages from their nodes and are fused with their own
  embeddings, then nodes gather the fused messages back.

      fused      = [H · (P · Wp) | E · We] · Wf            (4096 hyperedges, 128 features)
      propagated = G · fused                                (16384 nodes)

  with P the node embeddings, E the hyperedge embeddings, H and G the two dense incidence matrices, Wp, We the node and
  hyperedge weights and Wf the fusion weights (top half against the node part, bottom half against the hyperedge
  part). The kernel runs one grid of 48 points: the first 16 each compute 256 rows of
      (H · P) · (Wp · top Wf) + E · (We · bottom Wf)
  into a buffer that stays resident across the grid; the last 32 each multiply 512 rows of G with the completed
  buffer. The two arrangements of the fused messages agree by associativity of the matrix product and by splitting
  the contraction over the 256 joined columns into its two runs of 128; associativity rests on distributivity, which
  on the extended reals needs the entries to be real numbers, and that is what the precondition gives. The
  propagated messages then agree entry by entry with no further algebra.

  Frames: both printed kernels run through the same relational proof data (each input buffer holds its block; the
  resident buffer is complete up to the point's rows; the other output is overwritten in the second phase), stated
  once for any value type; the reference's frame is its run with the results dropped.
-/
import proofs.«178155_g20358144983738_cont_8to1_1615_5_alg».proof.Defs
import proofs.«178155_g20358144983738_cont_8to1_1615_5_alg».proof.Proof.Gen.Kernel
import proofs.«178155_g20358144983738_cont_8to1_1615_5_alg».proof.Proof.Gen.KernelIdeal
import proofs.«178155_g20358144983738_cont_8to1_1615_5_alg».proof.Proof.Gen.ReferenceIdeal
import proofs.«178155_g20358144983738_cont_8to1_1615_5_alg».proof.Proof.Gen.Pre_finite_inputs
import proofs.«178155_g20358144983738_cont_8to1_1615_5_alg».proof.Proof.KData
import proofs.«178155_g20358144983738_cont_8to1_1615_5_alg».proof.Proof.KIReads
import proofs.«178155_g20358144983738_cont_8to1_1615_5_alg».proof.Proof.RefReads
import proofs.«178155_g20358144983738_cont_8to1_1615_5_alg».proof.Proof.PreReal
import Idealize.ShloMosaic.Adequacy
import Idealize.ShloMosaic.Init

noncomputable section

namespace Cert.Proof

open Idealize.ShloMosaic Idealize.SL.Sem

/-- The word-level kernel terminates and leaves its arguments unchanged. -/
theorem frame_k : Cert.frame_Kernel := fun m ρ _ => Cert.Kernel.Data.frame m ρ

/-- So does the kernel read at the exact values. -/
theorem frame_ki : Cert.frame_KernelIdeal := fun m ρ _ => Cert.KernelIdeal.Data.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the exact values, from memories that agree on the seven arguments, the kernel's two result arrays and the
    reference's are the same functions of the arguments: the reference's fused messages are the specification's, the
    kernel's are the kernel's arrangement, equal to it on real entries; the propagated messages are the incidence
    matrix times the fused messages on both sides. -/
theorem algebraic : Cert.algebraic_KernelIdeal_ReferenceIdeal := by
  intro m ρ m' ρ' hpre hagree
  refine ⟨fun c => Cert.KernelIdeal.Final.prop m c, fun c => Cert.KernelIdeal.Data.fused m c,
    Cert.KernelIdeal.Final.run (F := Ideal) m ρ, ?_⟩
  have hfused : ∀ c : Dev Cert.KernelIdeal.nD, Cert.ReferenceIdeal.Read.val_main_v4 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Data.fused m c := fun c => by
    obtain ⟨r0, r1, r2, r3, r4, r5, r6⟩ := Cert.PreReal.all_real _ _ _ _ _ _ _ (hpre c)
    rw [Cert.ReferenceIdeal.RefValue.v4_eq, ← Cert.HyperConv.kernelFused_eq _ _ _ _ _ _ r0 r1 r3 r4 r5 r6,
      ← Cert.KernelIdeal.Reads.fused_eq]
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨g0, g1, g2, g3, g4, g5, g6⟩ := hagree c
    rw [g0, g1, g2, g3, g4, g5, g6, Cert.ReferenceIdeal.Read.val_main_v5_eq, Cert.ReferenceIdeal.RefValue.v5_eq,
      hfused c, ← Cert.KernelIdeal.Reads.prop_eq]
  · obtain ⟨g0, g1, g2, g3, g4, g5, g6⟩ := hagree c
    rw [g0, g1, g3, g4, g5, g6, Cert.ReferenceIdeal.Read.val_main_v4_eq, hfused c]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
